-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S121x128 : Shape := ⟨2, ![121, 128]⟩
abbrev S121 : Shape := ⟨1, ![121]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S121x128 : S_.BroadcastsInDim S121x128 (![] : Fin 0 → Fin S121x128.rank)
  reducesTo_S121x128_S_d0_1 : S121x128.ReducesTo [0, 1] S_
  bcast_S_S121 : S_.BroadcastsInDim S121 (![] : Fin 0 → Fin S121.rank)
  reducesTo_S121_S_d0 : S121.ReducesTo [0] S_

variable [Facts]

def fn_part2 {F : FTy → Type} [FloatOps F] (main_arg8 : FVec F S121x128 .f32) (main_arg9 : FVec F S121 .f32) (main_v33 : IVec S_ 1) : IVec S_ 1 :=
  let main_v34 : FVec F S121x128 .f32 := Host.absf main_arg8
  let main_cst_12 : FVec F S_ .f32 := constant S_ .f32 0x7F800000#32
  let main_v35 : FVec F S121x128 .f32 := broadcastInDim S121x128 ![] bcast_S_S121x128 main_cst_12
  let main_v36 : IVec S121x128 1 := cmpf .olt main_v34 main_v35
  let main_c_13 : IVec S_ 1 := constantI S_ 1 1#1
  let main_v37 : IVec S_ 1 := (fun x v => Host.reduce IntOp.andi x v reducesTo_S121x128_S_d0_1 h_S_) main_v36 main_c_13
  let main_v38 : IVec S_ 1 := andi main_v33 main_v37
  let main_v39 : FVec F S121 .f32 := Host.absf main_arg9
  let main_cst_14 : FVec F S_ .f32 := constant S_ .f32 0x7F800000#32
  let main_v40 : FVec F S121 .f32 := broadcastInDim S121 ![] bcast_S_S121 main_cst_14
  let main_v41 : IVec S121 1 := cmpf .olt main_v39 main_v40
  let main_c_15 : IVec S_ 1 := constantI S_ 1 1#1
  let main_v42 : IVec S_ 1 := (fun x v => Host.reduce IntOp.andi x v reducesTo_S121_S_d0 h_S_) main_v41 main_c_15
  let main_v43 : IVec S_ 1 := andi main_v38 main_v42
  main_v43

def fn_part1 {F : FTy → Type} [FloatOps F] (main_arg5 : FVec F S128 .f32) (main_arg6 : FVec F S121x128 .f32) (main_arg7 : FVec F S121 .f32) (main_arg8 : FVec F S121x128 .f32) (main_arg9 : FVec F S121 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S121x128 .f32 := Host.absf main_arg6
  let main_cst_8 : FVec F S_ .f32 := constant S_ .f32 0x7F800000#32
  let main_v25 : FVec F S121x128 .f32 := broadcastInDim S121x128 ![] bcast_S_S121x128 main_cst_8
  let main_v26 : IVec S121x128 1 := cmpf .olt main_v24 main_v25
  let main_c_9 : IVec S_ 1 := constantI S_ 1 1#1
  let main_v27 : IVec S_ 1 := (fun x v => Host.reduce IntOp.andi x v reducesTo_S121x128_S_d0_1 h_S_) main_v26 main_c_9
  let main_v28 : IVec S_ 1 := andi main_v23 main_v27
  let main_v29 : FVec F S121 .f32 := Host.absf main_arg7
  let main_cst_10 : FVec F S_ .f32 := constant S_ .f32 0x7F800000#32
  let main_v30 : FVec F S121 .f32 := broadcastInDim S121 ![] bcast_S_S121 main_cst_10
  let main_v31 : IVec S121 1 := cmpf .olt main_v29 main_v30
  let main_c_11 : IVec S_ 1 := constantI S_ 1 1#1
  let main_v32 : IVec S_ 1 := (fun x v => Host.reduce IntOp.andi x v reducesTo_S121_S_d0 h_S_) main_v31 main_c_11
  let main_v33 : IVec S_ 1 := andi main_v28 main_v32
  fn_part2 (F := F) main_arg8 main_arg9 main_v33

def fn {F : FTy → Type} [FloatOps F] (main_arg0 : FVec F S40000x128 .f32) (main_arg1 : IVec S2x640000 32) (main_arg2 : FVec F S128x128 .f32) (main_arg3 : FVec F S128 .f32) (main_arg4 : FVec F S128x128 .f32) (main_arg5 : FVec F S128 .f32) (main_arg6 : FVec F S121x128 .f32) (main_arg7 : FVec F S121 .f32) (main_arg8 : FVec F S121x128 .f32) (main_arg9 : FVec F S121 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S121x128 : Shape := ⟨2, ![121, 128]⟩
abbrev S121 : Shape := ⟨1, ![121]⟩
abbrev S0 : Shape := ⟨1, ![0]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩
abbrev S1x128 : Shape := ⟨2, ![1, 128]⟩
abbrev S4000x128 : Shape := ⟨2, ![4000, 128]⟩
abbrev S1 : Shape := ⟨1, ![1]⟩
abbrev S40000x121 : Shape := ⟨2, ![40000, 121]⟩

abbrev nBuf : Space → Nat
  | .hbm => 123
  | .vmem => 20
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S121x128, .f32⟩
  | .hbm, ⟨7, _⟩ => ⟨S121, .f32⟩
  | .hbm, ⟨8, _⟩ => ⟨S121x128, .f32⟩
  | .hbm, ⟨9, _⟩ => ⟨S121, .f32⟩
  | .hbm, ⟨10, _⟩ => ⟨S0, .i32⟩
  | .hbm, ⟨11, _⟩ => ⟨S0, .i32⟩
  | .hbm, ⟨12, _⟩ => ⟨S0, .i32⟩
  | .hbm, ⟨13, _⟩ => ⟨S0, .i32⟩
  | .hbm, ⟨14, _⟩ => ⟨S0, .i32⟩
  | .hbm, ⟨15, _⟩ => ⟨S1x640000, .i32⟩
  | .hbm, ⟨16, _⟩ => ⟨S640000, .i32⟩
  | .hbm, ⟨17, _⟩ => ⟨S1x640000, .i32⟩
  | .hbm, ⟨18, _⟩ => ⟨S640000, .i32⟩
  | .hbm, ⟨19, _⟩ => ⟨S_, .f32⟩
  | .hbm, ⟨20, _⟩ => ⟨S40000x128, .f32⟩
  | .hbm, ⟨21, _⟩ => ⟨S40000x128, .f32⟩
  | .hbm, ⟨22, _⟩ => ⟨S_, .i32⟩
  | .hbm, ⟨23, _⟩ => ⟨S640000, .i32⟩
  | .hbm, ⟨24, _⟩ => ⟨S640000, .i1⟩
  | .hbm, ⟨25, _⟩ => ⟨S_, .i32⟩
  | .hbm, ⟨26, _⟩ => ⟨S640000, .i32⟩
  | .hbm, ⟨27, _⟩ => ⟨S640000, .i32⟩
  | .hbm, ⟨28, _⟩ => ⟨S640000, .i32⟩
  | .hbm, ⟨29, _⟩ => ⟨S640000x1, .i32⟩
  | .hbm, ⟨30, _⟩ => ⟨S640000x128, .f32⟩
  | .hbm, ⟨31, _⟩ => ⟨S_, .f32⟩
  | .hbm, ⟨32, _⟩ => ⟨S40000x128, .f32⟩
  | .hbm, ⟨33, _⟩ => ⟨S640000x1, .i32⟩
  | .hbm, ⟨34, _⟩ => ⟨S40000x128, .f32⟩
  | .hbm, ⟨35, _⟩ => ⟨S_, .f32⟩
  | .hbm, ⟨36, _⟩ => ⟨S640000, .f32⟩
  | .hbm, ⟨37, _⟩ => ⟨S_, .f32⟩
  | .hbm, ⟨38, _⟩ => ⟨S40000, .f32⟩
  | .hbm, ⟨39, _⟩ => ⟨S640000x1, .i32⟩
  | .hbm, ⟨40, _⟩ => ⟨S40000, .f32⟩
  | .hbm, ⟨41, _⟩ => ⟨S_, .f32⟩
  | .hbm, ⟨42, _⟩ => ⟨S40000, .f32⟩
  | .hbm, ⟨43, _⟩ => ⟨S40000, .f32⟩
  | .hbm, ⟨44, _⟩ => ⟨S40000x1, .f32⟩
  | .hbm, ⟨45, _⟩ => ⟨S40000x128, .f32⟩
  | .hbm, ⟨46, _⟩ => ⟨S40000x128, .f32⟩
  | .hbm, ⟨47, _⟩ => ⟨S_, .f32⟩
  | .hbm, ⟨48, _⟩ => ⟨S128x128, .f32⟩
  | .hbm, ⟨49, _⟩ => ⟨S128x128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S128x128, .f32⟩
  | .hbm, ⟨54, _⟩ => ⟨S128x128, .bf16⟩
  | .hbm, ⟨55, _⟩ => ⟨S1x128, .f32⟩
  | .hbm, ⟨56, _⟩ => ⟨S_, .f32⟩
  | .hbm, ⟨57, _⟩ => ⟨S128x128, .f32⟩
  | .hbm, ⟨58, _⟩ => ⟨S128x128, .f32⟩
  | .hbm, ⟨59, _⟩ => ⟨S_, .f32⟩
  | .hbm, ⟨60, _⟩ => ⟨S128, .f32⟩
  | .hbm, ⟨61, _⟩ => ⟨S128, .f32⟩
  | .hbm, ⟨62, _⟩ => ⟨S128x128, .f32⟩
  | .hbm, ⟨63, _⟩ => ⟨S128x128, .bf16⟩
  | .hbm, ⟨64, _⟩ => ⟨S1x128, .f32⟩
  | .hbm, ⟨65, _⟩ => ⟨S40000x128, .bf16⟩
  | .hbm, ⟨66, _⟩ => ⟨S40000x128, .bf16⟩
  | .hbm, ⟨67, _⟩ => ⟨S40000x128, .f32⟩
  | .hbm, ⟨68, _⟩ => ⟨S_, .i32⟩
  | .hbm, ⟨69, _⟩ => ⟨S640000, .i32⟩
  | .hbm, ⟨70, _⟩ => ⟨S640000, .i1⟩
  | .hbm, ⟨71, _⟩ => ⟨S_, .i32⟩
  | .hbm, ⟨72, _⟩ => ⟨S640000, .i32⟩
  | .hbm, ⟨73, _⟩ => ⟨S640000, .i32⟩
  | .hbm, ⟨74, _⟩ => ⟨S640000, .i32⟩
  | .hbm, ⟨75, _⟩ => ⟨S640000x1, .i32⟩
  | .hbm, ⟨76, _⟩ => ⟨S640000x128, .f32⟩
  | .hbm, ⟨77, _⟩ => ⟨S_, .f32⟩
  | .hbm, ⟨78, _⟩ => ⟨S40000x128, .f32⟩
  | .hbm, ⟨79, _⟩ => ⟨S640000x1, .i32⟩
  | .hbm, ⟨80, _⟩ => ⟨S40000x128, .f32⟩
  | .hbm, ⟨81, _⟩ => ⟨S_, .f32⟩
  | .hbm, ⟨82, _⟩ => ⟨S640000, .f32⟩
  | .hbm, ⟨83, _⟩ => ⟨S_, .f32⟩
  | .hbm, ⟨84, _⟩ => ⟨S40000, .f32⟩
  | .hbm, ⟨85, _⟩ => ⟨S640000x1, .i32⟩
  | .hbm, ⟨86, _⟩ => ⟨S40000, .f32⟩
  | .hbm, ⟨87, _⟩ => ⟨S_, .f32⟩
  | .hbm, ⟨88, _⟩ => ⟨S40000, .f32⟩
  | .hbm, ⟨89, _⟩ => ⟨S40000, .f32⟩
  | .hbm, ⟨90, _⟩ => ⟨S40000x1, .f32⟩
  | .hbm, ⟨91, _⟩ => ⟨S40000x128, .f32⟩
  | .hbm, ⟨92, _⟩ => ⟨S40000x128, .f32⟩
  | .hbm, ⟨93, _⟩ => ⟨S_, .f32⟩
  | .hbm, ⟨94, _⟩ => ⟨S128x128, .f32⟩
  | .hbm, ⟨95, _⟩ => ⟨S_, .i32⟩
  | .hbm, ⟨96, _⟩ => ⟨S1, .i32⟩
  | .hbm, ⟨97, _⟩ => ⟨S128x128, .f32⟩
  | .hbm, ⟨98, _⟩ => ⟨S_, .f32⟩
  | .hbm, ⟨99, _⟩ => ⟨S128, .f32⟩
  | .hbm, ⟨100, _⟩ => ⟨S_, .i32⟩
  | .hbm, ⟨101, _⟩ => ⟨S1, .i32⟩
  | .hbm, ⟨102, _⟩ => ⟨S128, .f32⟩
  | .hbm, ⟨103, _⟩ => ⟨S128x128, .f32⟩
  | .hbm, ⟨104, _⟩ => ⟨S128x128, .bf16⟩
  | .hbm, ⟨105, _⟩ => ⟨S1x128, .f32⟩
  | .hbm, ⟨106, _⟩ => ⟨S_, .f32⟩
  | .hbm, ⟨107, _⟩ => ⟨S128x128, .f32⟩
  | .hbm, ⟨108, _⟩ => ⟨S_, .i32⟩
  | .hbm, ⟨109, _⟩ => ⟨S1, .i32⟩
  | .hbm, ⟨110, _⟩ => ⟨S128x128, .f32⟩
  | .hbm, ⟨111, _⟩ => ⟨S_, .f32⟩
  | .hbm, ⟨112, _⟩ => ⟨S128, .f32⟩
  | .hbm, ⟨113, _⟩ => ⟨S_, .i32⟩
  | .hbm, ⟨114, _⟩ => ⟨S1, .i32⟩
  | .hbm, ⟨115, _⟩ => ⟨S128, .f32⟩
  | .hbm, ⟨116, _⟩ => ⟨S128x128, .f32⟩
  | .hbm, ⟨117, _⟩ => ⟨S128x128, .bf16⟩
  | .hbm, ⟨118, _⟩ => ⟨S1x128, .f32⟩
  | .hbm, ⟨119, _⟩ => ⟨S40000x128, .bf16⟩
  | .hbm, ⟨120, _⟩ => ⟨S40000x128, .bf16⟩
  | .hbm, ⟨121, _⟩ => ⟨S40000x128, .f32⟩
  | .hbm, ⟨122, _⟩ => ⟨S40000x121, .f32⟩
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S4000x128, .bf16⟩
  | .local _ .vmem, ⟨11, _⟩ => ⟨S4000x128, .bf16⟩
  | .local _ .vmem, ⟨12, _⟩ => ⟨S4000x128, .bf16⟩
  | .local _ .vmem, ⟨13, _⟩ => ⟨S4000x128, .bf16⟩
  | .local _ .vmem, ⟨14, _⟩ => ⟨S128x128, .bf16⟩
  | .local _ .vmem, ⟨15, _⟩ => ⟨S1x128, .f32⟩
  | .local _ .vmem, ⟨16, _⟩ => ⟨S128x128, .bf16⟩
  | .local _ .vmem, ⟨17, _⟩ => ⟨S1x128, .f32⟩
  | .local _ .vmem, ⟨18, _⟩ => ⟨S4000x128, .f32⟩
  | .local _ .vmem, ⟨19, _⟩ => ⟨S4000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_c_1 : Ref sig .tc := ⟨.hbm, 12, rfl⟩
abbrev main_c_2 : Ref sig .tc := ⟨.hbm, 13, rfl⟩
abbrev main_c_3 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_c_4 : Ref sig .tc := ⟨.hbm, 22, rfl⟩
abbrev main_v6 : Ref sig .tc := ⟨.hbm, 23, rfl⟩
abbrev main_v7 : Ref sig .tc := ⟨.hbm, 24, rfl⟩
abbrev main_c_5 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_6 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_7 : Ref sig .tc := ⟨.hbm, 35, rfl⟩
abbrev main_v16 : Ref sig .tc := ⟨.hbm, 36, rfl⟩
abbrev main_cst_8 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_9 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_10 : Ref sig .tc := ⟨.hbm, 47, rfl⟩
abbrev main_v25 : Ref sig .tc := ⟨.hbm, 48, rfl⟩
abbrev main_v26 : Ref sig .tc := ⟨.hbm, 49, rfl⟩
abbrev main_cst_11 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_12 : Ref sig .tc := ⟨.hbm, 56, rfl⟩
abbrev main_v32 : Ref sig .tc := ⟨.hbm, 57, rfl⟩
abbrev main_v33 : Ref sig .tc := ⟨.hbm, 58, rfl⟩
abbrev main_cst_13 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_c_14 : Ref sig .tc := ⟨.hbm, 68, rfl⟩
abbrev main_v42 : Ref sig .tc := ⟨.hbm, 69, rfl⟩
abbrev main_v43 : Ref sig .tc := ⟨.hbm, 70, rfl⟩
abbrev main_c_15 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_16 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_17 : Ref sig .tc := ⟨.hbm, 81, rfl⟩
abbrev main_v52 : Ref sig .tc := ⟨.hbm, 82, rfl⟩
abbrev main_cst_18 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_19 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_20 : Ref sig .tc := ⟨.hbm, 93, rfl⟩
abbrev main_v61 : Ref sig .tc := ⟨.hbm, 94, rfl⟩
abbrev main_c_21 : Ref sig .tc := ⟨.hbm, 95, rfl⟩
abbrev main_v62 : Ref sig .tc := ⟨.hbm, 96, rfl⟩
abbrev main_v63 : Ref sig .tc := ⟨.hbm, 97, rfl⟩
abbrev main_cst_22 : Ref sig .tc := ⟨.hbm, 98, rfl⟩
abbrev main_v64 : Ref sig .tc := ⟨.hbm, 99, rfl⟩
abbrev main_c_23 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_24 : Ref sig .tc := ⟨.hbm, 106, rfl⟩
abbrev main_v70 : Ref sig .tc := ⟨.hbm, 107, rfl⟩
abbrev main_c_25 : Ref sig .tc := ⟨.hbm, 108, rfl⟩
abbrev main_v71 : Ref sig .tc := ⟨.hbm, 109, rfl⟩
abbrev main_v72 : Ref sig .tc := ⟨.hbm, 110, rfl⟩
abbrev main_cst_26 : Ref sig .tc := ⟨.hbm, 111, rfl⟩
abbrev main_v73 : Ref sig .tc := ⟨.hbm, 112, rfl⟩
abbrev main_c_27 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  hz_S0 : S0.numel = 0
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S40000x128 : S_.BroadcastsInDim S40000x128 (![] : Fin 0 → Fin S40000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S_S128x128 : S_.BroadcastsInDim S128x128 (![] : Fin 0 → Fin S128x128.rank)
  bcast_S_S128 : S_.BroadcastsInDim S128 (![] : Fin 0 → Fin S128.rank)
  transposes_S128x128_S128x128_1_0 : S128x128.Transposes [1, 0] S128x128
  bitsLt_bf16_f32 : FTy.bits .bf16 < FTy.bits .f32
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S1 : S_.BroadcastsInDim S1 (![] : Fin 0 → Fin S1.rank)
  slices_S40000x128_S40000x121_0_0 : S40000x128.Slices ![0, 0] S40000x121
  scatter_S40000x128_S0_S40000x128_01_n_n_0_wf : ScatterDims.WF S40000x128 S0 S40000x128 [0, 1] [] [] 0
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  scatter_S128x128_S0_S128x128_01_n_n_0_wf : ScatterDims.WF S128x128 S0 S128x128 [0, 1] [] [] 0
  scatter_S128_S0_S128_0_n_n_0_wf : ScatterDims.WF S128 S0 S128 [0] [] [] 0
  dot_S4000x128_S128x128_S4000x128_1_0_0_1_n_n_wf : DotDims.WF S4000x128 S128x128 S4000x128 [1] [0] [0] [1] [] []
  scatter_S128x128_S1_S121x128_01_n_0_0_wf : ScatterDims.WF S128x128 S1 S121x128 [0, 1] [] [0] 0
  scatter_S128_S1_S121_0_n_0_0_wf : ScatterDims.WF S128 S1 S121 [0] [] [0] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S40000x128.size a
  hwx0_0 : ∀ i : grid0.Coords, EltTy.bits .bf16 = 32 ∨ (Rect.block (s := S40000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S40000x128.size a
  hwx0_1 : ∀ i : grid0.Coords, EltTy.bits .bf16 = 32 ∨ (Rect.block (s := S40000x128) S4000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S40000x128.size a
  hwx0_6 : ∀ i : grid0.Coords, EltTy.bits .f32 = 32 ∨ (Rect.block (s := S40000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S40000x128.size a
  hwx1_0 : ∀ i : grid1.Coords, EltTy.bits .bf16 = 32 ∨ (Rect.block (s := S40000x128) S4000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S40000x128.size a
  hwx1_1 : ∀ i : grid1.Coords, EltTy.bits .bf16 = 32 ∨ (Rect.block (s := S40000x128) S4000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S40000x128.size a
  hwx1_6 : ∀ i : grid1.Coords, EltTy.bits .f32 = 32 ∨ (Rect.block (s := S40000x128) S4000x128.size (cc1_transform_6 i) (hinb1_6 i)).WholeWords (EltTy.packing .f32)

variable [Facts₀]

def scatter_S40000x128_S0_S40000x128_01_n_n_0 : ScatterDims S40000x128 S0 S40000x128 where
  updateWindowDims := [0, 1]
  insertedWindowDims := []
  scatterDimsToOperandDims := []
  indexVectorDim := 0
  wf := scatter_S40000x128_S0_S40000x128_01_n_n_0_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def scatter_S128x128_S0_S128x128_01_n_n_0 : ScatterDims S128x128 S0 S128x128 where
  updateWindowDims := [0, 1]
  insertedWindowDims := []
  scatterDimsToOperandDims := []
  indexVectorDim := 0
  wf := scatter_S128x128_S0_S128x128_01_n_n_0_wf
def scatter_S128_S0_S128_0_n_n_0 : ScatterDims S128 S0 S128 where
  updateWindowDims := [0]
  insertedWindowDims := []
  scatterDimsToOperandDims := []
  indexVectorDim := 0
  wf := scatter_S128_S0_S128_0_n_n_0_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S128x128_S1_S121x128_01_n_0_0 : ScatterDims S128x128 S1 S121x128 where
  updateWindowDims := [0, 1]
  insertedWindowDims := []
  scatterDimsToOperandDims := [0]
  indexVectorDim := 0
  wf := scatter_S128x128_S1_S121x128_01_n_0_0_wf
def scatter_S128_S1_S121_0_n_0_0 : ScatterDims S128 S1 S121 where
  updateWindowDims := [0]
  insertedWindowDims := []
  scatterDimsToOperandDims := [0]
  indexVectorDim := 0
  wf := scatter_S128_S1_S121_0_n_0_0_wf

abbrev win0_0 : Pipeline.Window sig grid0 :=
  Pipeline.Window.ofSpec (Memref.whole main_v39) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v41) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v79) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v80) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v68) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v69) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v77) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v78) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v81) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S121x128 : Shape := ⟨2, ![121, 128]⟩
abbrev S121 : Shape := ⟨1, ![121]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩
abbrev S1x128 : Shape := ⟨2, ![1, 128]⟩
abbrev S128x121 : Shape := ⟨2, ![128, 121]⟩
abbrev S40000x121 : Shape := ⟨2, ![40000, 121]⟩
abbrev S1x121 : Shape := ⟨2, ![1, 121]⟩

abbrev nBuf : Space → Nat
  | .hbm => 89
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S121x128, .f32⟩
  | .hbm, ⟨7, _⟩ => ⟨S121, .f32⟩
  | .hbm, ⟨8, _⟩ => ⟨S121x128, .f32⟩
  | .hbm, ⟨9, _⟩ => ⟨S121, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S640000x128, .f32⟩
  | .hbm, ⟨23, _⟩ => ⟨S_, .f32⟩
  | .hbm, ⟨24, _⟩ => ⟨S40000x128, .f32⟩
  | .hbm, ⟨25, _⟩ => ⟨S640000x1, .i32⟩
  | .hbm, ⟨26, _⟩ => ⟨S40000x128, .f32⟩
  | .hbm, ⟨27, _⟩ => ⟨S_, .f32⟩
  | .hbm, ⟨28, _⟩ => ⟨S640000, .f32⟩
  | .hbm, ⟨29, _⟩ => ⟨S_, .f32⟩
  | .hbm, ⟨30, _⟩ => ⟨S40000, .f32⟩
  | .hbm, ⟨31, _⟩ => ⟨S640000x1, .i32⟩
  | .hbm, ⟨32, _⟩ => ⟨S40000, .f32⟩
  | .hbm, ⟨33, _⟩ => ⟨S_, .f32⟩
  | .hbm, ⟨34, _⟩ => ⟨S40000, .f32⟩
  | .hbm, ⟨35, _⟩ => ⟨S40000, .f32⟩
  | .hbm, ⟨36, _⟩ => ⟨S40000x1, .f32⟩
  | .hbm, ⟨37, _⟩ => ⟨S40000x128, .f32⟩
  | .hbm, ⟨38, _⟩ => ⟨S40000x128, .f32⟩
  | .hbm, ⟨39, _⟩ => ⟨S128x128, .f32⟩
  | .hbm, ⟨40, _⟩ => ⟨S40000x128, .f32⟩
  | .hbm, ⟨41, _⟩ => ⟨S1x128, .f32⟩
  | .hbm, ⟨42, _⟩ => ⟨S40000x128, .f32⟩
  | .hbm, ⟨43, _⟩ => ⟨S40000x128, .f32⟩
  | .hbm, ⟨44, _⟩ => ⟨S128x128, .f32⟩
  | .hbm, ⟨45, _⟩ => ⟨S40000x128, .f32⟩
  | .hbm, ⟨46, _⟩ => ⟨S40000x128, .f32⟩
  | .hbm, ⟨47, _⟩ => ⟨S1x128, .f32⟩
  | .hbm, ⟨48, _⟩ => ⟨S40000x128, .f32⟩
  | .hbm, ⟨49, _⟩ => ⟨S40000x128, .f32⟩
  | .hbm, ⟨50, _⟩ => ⟨S_, .f32⟩
  | .hbm, ⟨51, _⟩ => ⟨S40000x128, .f32⟩
  | .hbm, ⟨52, _⟩ => ⟨S40000x128, .f32⟩
  | .hbm, ⟨53, _⟩ => ⟨S_, .i32⟩
  | .hbm, ⟨54, _⟩ => ⟨S640000, .i32⟩
  | .hbm, ⟨55, _⟩ => ⟨S640000, .i1⟩
  | .hbm, ⟨56, _⟩ => ⟨S_, .i32⟩
  | .hbm, ⟨57, _⟩ => ⟨S640000, .i32⟩
  | .hbm, ⟨58, _⟩ => ⟨S640000, .i32⟩
  | .hbm, ⟨59, _⟩ => ⟨S640000, .i32⟩
  | .hbm, ⟨60, _⟩ => ⟨S640000x1, .i32⟩
  | .hbm, ⟨61, _⟩ => ⟨S640000x128, .f32⟩
  | .hbm, ⟨62, _⟩ => ⟨S_, .f32⟩
  | .hbm, ⟨63, _⟩ => ⟨S40000x128, .f32⟩
  | .hbm, ⟨64, _⟩ => ⟨S640000x1, .i32⟩
  | .hbm, ⟨65, _⟩ => ⟨S40000x128, .f32⟩
  | .hbm, ⟨66, _⟩ => ⟨S_, .f32⟩
  | .hbm, ⟨67, _⟩ => ⟨S640000, .f32⟩
  | .hbm, ⟨68, _⟩ => ⟨S_, .f32⟩
  | .hbm, ⟨69, _⟩ => ⟨S40000, .f32⟩
  | .hbm, ⟨70, _⟩ => ⟨S640000x1, .i32⟩
  | .hbm, ⟨71, _⟩ => ⟨S40000, .f32⟩
  | .hbm, ⟨72, _⟩ => ⟨S_, .f32⟩
  | .hbm, ⟨73, _⟩ => ⟨S40000, .f32⟩
  | .hbm, ⟨74, _⟩ => ⟨S40000, .f32⟩
  | .hbm, ⟨75, _⟩ => ⟨S40000x1, .f32⟩
  | .hbm, ⟨76, _⟩ => ⟨S40000x128, .f32⟩
  | .hbm, ⟨77, _⟩ => ⟨S40000x128, .f32⟩
  | .hbm, ⟨78, _⟩ => ⟨S128x121, .f32⟩
  | .hbm, ⟨79, _⟩ => ⟨S40000x121, .f32⟩
  | .hbm, ⟨80, _⟩ => ⟨S1x121, .f32⟩
  | .hbm, ⟨81, _⟩ => ⟨S40000x121, .f32⟩
  | .hbm, ⟨82, _⟩ => ⟨S40000x121, .f32⟩
  | .hbm, ⟨83, _⟩ => ⟨S128x121, .f32⟩
  | .hbm, ⟨84, _⟩ => ⟨S40000x121, .f32⟩
  | .hbm, ⟨85, _⟩ => ⟨S40000x121, .f32⟩
  | .hbm, ⟨86, _⟩ => ⟨S1x121, .f32⟩
  | .hbm, ⟨87, _⟩ => ⟨S40000x121, .f32⟩
  | .hbm, ⟨88, _⟩ => ⟨S40000x121, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call0_cst : Ref sig .tc := ⟨.hbm, 50, rfl⟩
abbrev main_call0_v0 : Ref sig .tc := ⟨.hbm, 51, rfl⟩
abbrev main_v34 : Ref sig .tc := ⟨.hbm, 52, rfl⟩
abbrev main_c_4 : Ref sig .tc := ⟨.hbm, 53, rfl⟩
abbrev main_v35 : Ref sig .tc := ⟨.hbm, 54, rfl⟩
abbrev main_v36 : Ref sig .tc := ⟨.hbm, 55, rfl⟩
abbrev main_c_5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_6 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  transposes_S128x128_S128x128_1_0 : S128x128.Transposes [1, 0] S128x128
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  transposes_S121x128_S128x121_1_0 : S121x128.Transposes [1, 0] S128x121
  bcast_S121_S1x121_1 : S121.BroadcastsInDim S1x121 (![1] : Fin 1 → Fin S1x121.rank)
  bcast_S1x121_S40000x121_0_1 : S1x121.BroadcastsInDim S40000x121 (![0, 1] : Fin 2 → Fin S40000x121.rank)
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S40000x128_S128x128_S40000x128_1_0_0_1_n_n_wf : DotDims.WF S40000x128 S128x128 S40000x128 [1] [0] [0] [1] [] []
  dot_S40000x128_S128x121_S40000x121_1_0_0_1_n_n_wf : DotDims.WF S40000x128 S128x121 S40000x121 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def dot_S40000x128_S128x121_S40000x121_1_0_0_1_n_n : DotDims S40000x128 S128x121 S40000x121 where
  lhsContracting := [1]
  rhsContracting := [0]
  lhsNonContracting := [0]
  rhsNonContracting := [1]
  lhsBatch := []
  rhsBatch := []
  wf := dot_S40000x128_S128x121_S40000x121_1_0_0_1_n_n_wf

class Facts : Prop extends Facts₀ where

variable [Facts]
-- ==== Proof.KernelRun.lean ====
/-
  The run of the idealized kernel program with its result named.

  The program's entry point is a list of five segments: host operations, the first fused
  kernel call, host operations, the second fused kernel call, host operations. The generated
  frame module computes, for every segment boundary, the contents of every buffer the
  TensorCore holds outside any scope, as a fold from the launch memory; the last of these
  folds is `Gen.W5 m ρ c`. The launch theorem for such segment lists says that every weakly
  fair execution terminates without a fault, and that the final memory agrees with the last
  fold on every such buffer. Here that conclusion is kept whole (`run_of_reading`), and then
  read at the result buffer and at the ten argument buffers (`run_result`).
-/
import proofs.«181711_j77154792506118_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the launch theorem's implicit arguments are found by unifying its conclusion with the statement below,
-- which needs plain definitions unfolded inside a metavariable's type
set_option backward.isDefEq.respectTransparency.types false in
/-- From any launch memory `m` with all semaphore counters at zero and any generator registers `ρ`,
    every weakly fair execution of the entry point on the TensorCores terminates, nothing faulting, and
    every final memory `s` holds, at each buffer `b` a core `c` keeps outside any scope, the contents
    `Gen.W5 m ρ c b` that the five segments leave there. Any property `Q` of final states that follows
    from these equalities therefore holds of every final state. -/
theorem run_of_reading (m : (ℓ : Loc nD τ sig) → Buf (Elt F) ℓ) (ρ : Dev nD → PrngReg)
    {Q : PUnit × MemSt nD τ sig (Elt F) → Prop}
    (hQ : ∀ s : MemSt nD τ sig (Elt F),
      (∀ c : Dev nD, ∀ b ∈ Pipeline.ucRefs τ sig, s.mem (((c : Thread nD τ)).1, b) = Gen.W5 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := hQ)

/-- The run, read at the buffers the equivalence statement speaks of: on every core the result buffer ends at
    what the last segment leaves in it, `Gen.W5 m ρ c` at that buffer, and each of the ten argument buffers
    ends at its launch contents (no segment writes an argument). -/
theorem run_result (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v82) = Gen.W5 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_of_reading m ρ fun s h c =>
    ⟨h c _ (Gen.mem_uc main_v82 (by decide)),
     (h c _ (Gen.mem_uc main_arg0 (by decide))).trans (Gen.W5_main_arg0 m ρ c),
     (h c _ (Gen.mem_uc main_arg1 (by decide))).trans (Gen.W5_main_arg1 m ρ c),
     (h c _ (Gen.mem_uc main_arg2 (by decide))).trans (Gen.W5_main_arg2 m ρ c),
     (h c _ (Gen.mem_uc main_arg3 (by decide))).trans (Gen.W5_main_arg3 m ρ c),
     (h c _ (Gen.mem_uc main_arg4 (by decide))).trans (Gen.W5_main_arg4 m ρ c),
     (h c _ (Gen.mem_uc main_arg5 (by decide))).trans (Gen.W5_main_arg5 m ρ c),
     (h c _ (Gen.mem_uc main_arg6 (by decide))).trans (Gen.W5_main_arg6 m ρ c),
     (h c _ (Gen.mem_uc main_arg7 (by decide))).trans (Gen.W5_main_arg7 m ρ c),
     (h c _ (Gen.mem_uc main_arg8 (by decide))).trans (Gen.W5_main_arg8 m ρ c),
     (h c _ (Gen.mem_uc main_arg9 (by decide))).trans (Gen.W5_main_arg9 m ρ c)⟩

end Cert.KernelIdeal.Run

end
-- ==== Proof.HostTerms.lean ====
/-
  The mean aggregation of neighbour features, as the kernel program's host operations compute it, written
  once as a function of the node features `h`, the edge sources `s` and the edge destinations `d`:
  every edge gathers its source row (a negative source counted from the end), the rows are added up per
  destination, and each destination's sum is divided by the number of edges that reach it, at least one.
  The gather and the two accumulating scatters are kept as the operations they are; nothing here looks inside.
-/
import proofs.«181711_j77154792506118_1_alg».proof.KernelIdeal
import proofs.«181711_j77154792506118_1_alg».proof.Proof.Gen.KernelIdeal

noncomputable section

namespace Cert.KernelIdeal.HostValue

open Cert.KernelIdeal Cert.KernelIdeal.Facts₀ Cert.KernelIdeal.Facts Idealize.ShloMosaic

variable {F : FTy → Type} [FloatOps F]

/-- Row `r` (0: sources, 1: destinations) of the edge list as a flat vector of 640000 node numbers. -/
def srcRow (e : IVec S2x640000 32) : IVec S640000 32 :=
  shapeCast _ (extractStridedSlice S1x640000 ![0, 0] e slices_S2x640000_S1x640000_0_0) shapeCasts_S1x640000_S640000
def dstRow (e : IVec S2x640000 32) : IVec S640000 32 :=
  shapeCast _ (extractStridedSlice S1x640000 ![1, 0] e slices_S2x640000_S1x640000_1_0) shapeCasts_S1x640000_S640000

/-- The mean of the source rows over the edges into each destination (count at least one). -/
def aggK (h : FVec F S40000x128 .f32) (s d : IVec S640000 32) : FVec F S40000x128 .f32 :=
  Host.divf
    (Host.scatterAdd scatter_S40000x128_S640000x1_S640000x128_1_0_0_1
      (broadcastInDim S40000x128 ![] bcast_S_S40000x128 (constant S_ .f32 0x00000000#32))
      (broadcastInDim S640000x1 ![0] bcast_S640000_S640000x1_0 d)
      (Host.gather gather_S40000x128_S640000x1_S640000x128_1_0_n_n_0_1_1128 h
        (broadcastInDim S640000x1 ![0] bcast_S640000_S640000x1_0
          (select (cmpi .slt s (broadcastInDim S640000 ![] bcast_S_S640000 (constantI S_ 32 0#32)))
            (addi s (broadcastInDim S640000 ![] bcast_S_S640000 (constantI S_ 32 40000#32))) s))))
    (broadcastInDim S40000x128 ![0, 1] bcast_S40000x1_S40000x128_0_1
      (broadcastInDim S40000x1 ![0] bcast_S40000_S40000x1_0
        (maximumf
          (Host.scatterAdd scatter_S40000_S640000x1_S640000_n_0_0_1
            (broadcastInDim S40000 ![] bcast_S_S40000 (constant S_ .f32 0x00000000#32))
            (broadcastInDim S640000x1 ![0] bcast_S640000_S640000x1_0 d)
            (broadcastInDim S640000 ![] bcast_S_S640000 (constant S_ .f32 0x3F800000#32)))
          (broadcastInDim S40000 ![] bcast_S_S40000 (constant S_ .f32 0x3F800000#32)))))

end Cert.KernelIdeal.HostValue

end
-- ==== Proof.HostRead0a.lean ====
import proofs.«181711_j77154792506118_1_alg».proof.Proof.Gen.KernelIdeal.Frame
import proofs.«181711_j77154792506118_1_alg».proof.Proof.HostTerms
import Idealize.ShloMosaic.Lib.StableHlo.Run
import Idealize.ShloMosaic.PureOps.Ideal
import Idealize.ShloMosaic.Lib.ValueIdx

noncomputable section

namespace Cert.KernelIdeal.HostValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! What the host operations before the first kernel call leave in the two row-blocked operands of that
    call: the mean aggregation of the (zero-padded) node features, and the padded node features themselves. -/

/-- The first call's aggregated operand is the mean aggregation of the padded node features over the edge list. -/
theorem V1_v39 : (V1 (F := Ideal) m ρ c main_v39 : S40000x128.Idx → EReal) =
    truncf .bf16 (aggK (F := Ideal) (Host.scatter scatter_S40000x128_S0_S40000x128_01_n_n_0 (fun _ b => b) (broadcastInDim S40000x128 ![] bcast_S_S40000x128 (constant (F := Ideal) S_ .f32 0x00000000#32)) (emptyVec S0 hz_S0 : IVec S0 32) (m ((c : Thread nD τ).loc main_arg0))) (srcRow (m ((c : Thread nD τ).loc main_arg1))) (dstRow (m ((c : Thread nD τ).loc main_arg1)))) bitsLt_bf16_f32 := by
  show StableHlo.after hostOps0 (W0 m ρ c) (Proc.devRef .tc main_v39) = _
  after_results_simp <;> (unfold aggK srcRow dstRow; rfl)

/-- The first call's own-feature operand is the padded node features. -/
theorem V1_v40 : (V1 (F := Ideal) m ρ c main_v40 : S40000x128.Idx → EReal) = truncf .bf16 (Host.scatter scatter_S40000x128_S0_S40000x128_01_n_n_0 (fun _ b => b) (broadcastInDim S40000x128 ![] bcast_S_S40000x128 (constant (F := Ideal) S_ .f32 0x00000000#32)) (emptyVec S0 hz_S0 : IVec S0 32) (m ((c : Thread nD τ).loc main_arg0))) bitsLt_bf16_f32 := by
  show StableHlo.after hostOps0 (W0 m ρ c) (Proc.devRef .tc main_v40) = _
  after_results_simp <;> rfl

end Cert.KernelIdeal.HostValue

end
-- ==== Proof.HostRead0b.lean ====
import proofs.«181711_j77154792506118_1_alg».proof.Proof.Gen.KernelIdeal.Frame
import proofs.«181711_j77154792506118_1_alg».proof.Proof.HostTerms
import Idealize.ShloMosaic.Lib.StableHlo.Run
import Idealize.ShloMosaic.PureOps.Ideal
import Idealize.ShloMosaic.Lib.ValueIdx

noncomputable section

namespace Cert.KernelIdeal.HostValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! What the host operations before the first kernel call leave in its weight and bias operands: each weight
    matrix written over a zero matrix of its own size and transposed, each bias vector written over a zero vector
    and given a leading unit axis. -/

theorem V1_v30 : (V1 (F := Ideal) m ρ c main_v30 : S128x128.Idx → EReal) = (truncf .bf16 (transpose S128x128 [1, 0] (Host.scatter scatter_S128x128_S0_S128x128_01_n_n_0 (fun _ b => b) (broadcastInDim S128x128 ![] bcast_S_S128x128 (constant (F := Ideal) S_ .f32 0x00000000#32)) (emptyVec S0 hz_S0 : IVec S0 32) (m ((c : Thread nD τ).loc main_arg2))) transposes_S128x128_S128x128_1_0) bitsLt_bf16_f32) := by
  show StableHlo.after hostOps0 (W0 m ρ c) (Proc.devRef .tc main_v30) = _
  after_results_simp <;> rfl

theorem V1_v31 : (V1 (F := Ideal) m ρ c main_v31 : S1x128.Idx → EReal) = (shapeCast S1x128 (Host.scatter scatter_S128_S0_S128_0_n_n_0 (fun _ b => b) (broadcastInDim S128 ![] bcast_S_S128 (constant (F := Ideal) S_ .f32 0x00000000#32)) (emptyVec S0 hz_S0 : IVec S0 32) (m ((c : Thread nD τ).loc main_arg3))) shapeCasts_S128_S1x128) := by
  show StableHlo.after hostOps0 (W0 m ρ c) (Proc.devRef .tc main_v31) = _
  after_results_simp <;> rfl

theorem V1_v37 : (V1 (F := Ideal) m ρ c main_v37 : S128x128.Idx → EReal) = (truncf .bf16 (transpose S128x128 [1, 0] (Host.scatter scatter_S128x128_S0_S128x128_01_n_n_0 (fun _ b => b) (broadcastInDim S128x128 ![] bcast_S_S128x128 (constant (F := Ideal) S_ .f32 0x00000000#32)) (emptyVec S0 hz_S0 : IVec S0 32) (m ((c : Thread nD τ).loc main_arg4))) transposes_S128x128_S128x128_1_0) bitsLt_bf16_f32) := by
  show StableHlo.after hostOps0 (W0 m ρ c) (Proc.devRef .tc main_v37) = _
  after_results_simp <;> rfl

theorem V1_v38 : (V1 (F := Ideal) m ρ c main_v38 : S1x128.Idx → EReal) = (shapeCast S1x128 (Host.scatter scatter_S128_S0_S128_0_n_n_0 (fun _ b => b) (broadcastInDim S128 ![] bcast_S_S128 (constant (F := Ideal) S_ .f32 0x00000000#32)) (emptyVec S0 hz_S0 : IVec S0 32) (m ((c : Thread nD τ).loc main_arg5))) shapeCasts_S128_S1x128) := by
  show StableHlo.after hostOps0 (W0 m ρ c) (Proc.devRef .tc main_v38) = _
  after_results_simp <;> rfl

end Cert.KernelIdeal.HostValue

end
-- ==== Proof.HostRead0c.lean ====
import proofs.«181711_j77154792506118_1_alg».proof.Proof.Gen.KernelIdeal.Frame
import proofs.«181711_j77154792506118_1_alg».proof.Proof.HostTerms
import Idealize.ShloMosaic.Lib.StableHlo.Run
import Idealize.ShloMosaic.PureOps.Ideal
import Idealize.ShloMosaic.Lib.ValueIdx

noncomputable section

namespace Cert.KernelIdeal.HostValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! Buffers the second stretch of host operations reads that the first stretch wrote or left alone: the two rows
    of the edge list, and the second layer's weights and biases (arguments no operation writes). -/

theorem W1_v1 : (W1 (F := Ideal) m ρ c (Proc.devRef .tc main_v1) : S640000.Idx → BitVec 32) = srcRow (m ((c : Thread nD τ).loc main_arg1)) := by
  show StableHlo.after hostOps0 (W0 m ρ c) (Proc.devRef .tc main_v1) = _
  after_results_simp <;> (unfold srcRow; rfl)

theorem W1_v3 : (W1 (F := Ideal) m ρ c (Proc.devRef .tc main_v3) : S640000.Idx → BitVec 32) = dstRow (m ((c : Thread nD τ).loc main_arg1)) := by
  show StableHlo.after hostOps0 (W0 m ρ c) (Proc.devRef .tc main_v3) = _
  after_results_simp <;> (unfold dstRow; rfl)

theorem W1_arg6 : W1 (F := Ideal) m ρ c (Proc.devRef .tc main_arg6) = m ((c : Thread nD τ).loc main_arg6) := by
  show StableHlo.after hostOps0 (W0 m ρ c) (Proc.devRef .tc main_arg6) = _
  after_results_simp <;> rfl

theorem W1_arg7 : W1 (F := Ideal) m ρ c (Proc.devRef .tc main_arg7) = m ((c : Thread nD τ).loc main_arg7) := by
  show StableHlo.after hostOps0 (W0 m ρ c) (Proc.devRef .tc main_arg7) = _
  after_results_simp <;> rfl

theorem W1_arg8 : W1 (F := Ideal) m ρ c (Proc.devRef .tc main_arg8) = m ((c : Thread nD τ).loc main_arg8) := by
  show StableHlo.after hostOps0 (W0 m ρ c) (Proc.devRef .tc main_arg8) = _
  after_results_simp <;> rfl

theorem W1_arg9 : W1 (F := Ideal) m ρ c (Proc.devRef .tc main_arg9) = m ((c : Thread nD τ).loc main_arg9) := by
  show StableHlo.after hostOps0 (W0 m ρ c) (Proc.devRef .tc main_arg9) = _
  after_results_simp <;> rfl

end Cert.KernelIdeal.HostValue

end
-- ==== Proof.HostRead1a.lean ====
import proofs.«181711_j77154792506118_1_alg».proof.Proof.Gen.KernelIdeal.Frame
import proofs.«181711_j77154792506118_1_alg».proof.Proof.HostTerms
import Idealize.ShloMosaic.Lib.StableHlo.Run
import Idealize.ShloMosaic.PureOps.Ideal
import Idealize.ShloMosaic.Lib.ValueIdx

noncomputable section

namespace Cert.KernelIdeal.HostValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! What the host operations between the two kernel calls leave in the two row-blocked operands of the second
    call, in terms of the buffers as the first call left them: the mean aggregation of the first call's result
    over the same edge list, and that result itself. -/

theorem V3_v79 : (V3 (F := Ideal) m ρ c main_v79 : S40000x128.Idx → EReal) =
    truncf .bf16 (aggK (F := Ideal) (W2 m ρ c (Proc.devRef .tc main_v41) : FVec Ideal S40000x128 .f32) (W2 m ρ c (Proc.devRef .tc main_v1) : IVec S640000 32) (W2 m ρ c (Proc.devRef .tc main_v3) : IVec S640000 32)) bitsLt_bf16_f32 := by
  show StableHlo.after hostOps1 (W2 m ρ c) (Proc.devRef .tc main_v79) = _
  after_results_simp <;> (unfold aggK; rfl)

theorem V3_v80 : (V3 (F := Ideal) m ρ c main_v80 : S40000x128.Idx → EReal) =
    (truncf (F := Ideal) .bf16 (W2 m ρ c (Proc.devRef .tc main_v41) : FVec Ideal S40000x128 .f32) bitsLt_bf16_f32 : FVec Ideal S40000x128 .bf16) := by
  show StableHlo.after hostOps1 (W2 m ρ c) (Proc.devRef .tc main_v80) = _
  after_results_simp <;> rfl

end Cert.KernelIdeal.HostValue

end
-- ==== Proof.HostRead1b.lean ====
import proofs.«181711_j77154792506118_1_alg».proof.Proof.Gen.KernelIdeal.Frame
import proofs.«181711_j77154792506118_1_alg».proof.Proof.HostTerms
import Idealize.ShloMosaic.Lib.StableHlo.Run
import Idealize.ShloMosaic.PureOps.Ideal
import Idealize.ShloMosaic.Lib.ValueIdx

noncomputable section

namespace Cert.KernelIdeal.HostValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! What the host operations between the two kernel calls leave in the second call's weight and bias operands:
    each 121-row weight matrix written at row 0 of a zero 128-row matrix and transposed, each 121-entry bias written
    at position 0 of a zero 128-entry vector and given a leading unit axis. -/

theorem V3_v68 : (V3 (F := Ideal) m ρ c main_v68 : S128x128.Idx → EReal) = (truncf .bf16 (transpose S128x128 [1, 0] (Host.scatter scatter_S128x128_S1_S121x128_01_n_0_0 (fun _ b => b) (broadcastInDim S128x128 ![] bcast_S_S128x128 (constant (F := Ideal) S_ .f32 0x00000000#32)) (broadcastInDim S1 ![] bcast_S_S1 (constantI S_ 32 0#32)) (W2 m ρ c (Proc.devRef .tc main_arg6) : FVec Ideal S121x128 .f32)) transposes_S128x128_S128x128_1_0) bitsLt_bf16_f32) := by
  show StableHlo.after hostOps1 (W2 m ρ c) (Proc.devRef .tc main_v68) = _
  after_results_simp <;> rfl

theorem V3_v69 : (V3 (F := Ideal) m ρ c main_v69 : S1x128.Idx → EReal) = (shapeCast S1x128 (Host.scatter scatter_S128_S1_S121_0_n_0_0 (fun _ b => b) (broadcastInDim S128 ![] bcast_S_S128 (constant (F := Ideal) S_ .f32 0x00000000#32)) (broadcastInDim S1 ![] bcast_S_S1 (constantI S_ 32 0#32)) (W2 m ρ c (Proc.devRef .tc main_arg7) : FVec Ideal S121 .f32)) shapeCasts_S128_S1x128) := by
  show StableHlo.after hostOps1 (W2 m ρ c) (Proc.devRef .tc main_v69) = _
  after_results_simp <;> rfl

theorem V3_v77 : (V3 (F := Ideal) m ρ c main_v77 : S128x128.Idx → EReal) = (truncf .bf16 (transpose S128x128 [1, 0] (Host.scatter scatter_S128x128_S1_S121x128_01_n_0_0 (fun _ b => b) (broadcastInDim S128x128 ![] bcast_S_S128x128 (constant (F := Ideal) S_ .f32 0x00000000#32)) (broadcastInDim S1 ![] bcast_S_S1 (constantI S_ 32 0#32)) (W2 m ρ c (Proc.devRef .tc main_arg8) : FVec Ideal S121x128 .f32)) transposes_S128x128_S128x128_1_0) bitsLt_bf16_f32) := by
  show StableHlo.after hostOps1 (W2 m ρ c) (Proc.devRef .tc main_v77) = _
  after_results_simp <;> rfl

theorem V3_v78 : (V3 (F := Ideal) m ρ c main_v78 : S1x128.Idx → EReal) = (shapeCast S1x128 (Host.scatter scatter_S128_S1_S121_0_n_0_0 (fun _ b => b) (broadcastInDim S128 ![] bcast_S_S128 (constant (F := Ideal) S_ .f32 0x00000000#32)) (broadcastInDim S1 ![] bcast_S_S1 (constantI S_ 32 0#32)) (W2 m ρ c (Proc.devRef .tc main_arg9) : FVec Ideal S121 .f32)) shapeCasts_S128_S1x128) := by
  show StableHlo.after hostOps1 (W2 m ρ c) (Proc.devRef .tc main_v78) = _
  after_results_simp <;> rfl

end Cert.KernelIdeal.HostValue

end
-- ==== Proof.HostRead2.lean ====
import proofs.«181711_j77154792506118_1_alg».proof.Proof.Gen.KernelIdeal.Frame
import proofs.«181711_j77154792506118_1_alg».proof.Proof.HostTerms
import Idealize.ShloMosaic.Lib.StableHlo.Run
import Idealize.ShloMosaic.PureOps.Ideal
import Idealize.ShloMosaic.Lib.ValueIdx
import proofs.«181711_j77154792506118_1_alg».proof.Proof.HostRead0c

noncomputable section

namespace Cert.KernelIdeal.HostValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! The last host operation cuts the first 121 columns out of the second call's result; and what the second
    stretch of host operations reads of earlier buffers, the first call having left them as it found them. -/

/-- The program's result is the second call's result array cut to its first 121 columns. -/
theorem W5_v82 : (W5 (F := Ideal) m ρ c (Proc.devRef .tc main_v82) : S40000x121.Idx → EReal) =
    extractStridedSlice S40000x121 ![0, 0] (W4 m ρ c (Proc.devRef .tc main_v81) : FVec Ideal S40000x128 .f32) slices_S40000x128_S40000x121_0_0 := by
  show StableHlo.after hostOps2 (W4 m ρ c) (Proc.devRef .tc main_v82) = _
  after_results_simp <;> rfl

/-- The first call leaves the edge sources as the first stretch computed them. -/
theorem W2_v1 : (W2 (F := Ideal) m ρ c (Proc.devRef .tc main_v1) : S640000.Idx → BitVec 32) = srcRow (m ((c : Thread nD τ).loc main_arg1)) :=
  (W2_of_ne m ρ c main_v1 (by decide)).trans (W1_v1 m ρ c)

/-- The first call leaves the edge destinations as the first stretch computed them. -/
theorem W2_v3 : (W2 (F := Ideal) m ρ c (Proc.devRef .tc main_v3) : S640000.Idx → BitVec 32) = dstRow (m ((c : Thread nD τ).loc main_arg1)) :=
  (W2_of_ne m ρ c main_v3 (by decide)).trans (W1_v3 m ρ c)

theorem W2_arg6 : W2 (F := Ideal) m ρ c (Proc.devRef .tc main_arg6) = (m ((c : Thread nD τ).loc main_arg6)) :=
  (W2_of_ne m ρ c main_arg6 (by decide)).trans (W1_arg6 m ρ c)
theorem W2_arg7 : W2 (F := Ideal) m ρ c (Proc.devRef .tc main_arg7) = (m ((c : Thread nD τ).loc main_arg7)) :=
  (W2_of_ne m ρ c main_arg7 (by decide)).trans (W1_arg7 m ρ c)
theorem W2_arg8 : W2 (F := Ideal) m ρ c (Proc.devRef .tc main_arg8) = (m ((c : Thread nD τ).loc main_arg8)) :=
  (W2_of_ne m ρ c main_arg8 (by decide)).trans (W1_arg8 m ρ c)
theorem W2_arg9 : W2 (F := Ideal) m ρ c (Proc.devRef .tc main_arg9) = (m ((c : Thread nD τ).loc main_arg9)) :=
  (W2_of_ne m ρ c main_arg9 (by decide)).trans (W1_arg9 m ρ c)

end Cert.KernelIdeal.HostValue

end
-- ==== Proof.LibScatterSet.lean ====
import Idealize.ShloMosaic.PureOps.ShapeOps
import Mathlib.Data.List.Nodup
import Mathlib.Data.List.FinRange

/-!
# Reading a host scatter at an index

`Host.scatter d f x idx upd` is a left fold, over the update positions in row-major order, of a
step that rewrites at most one element of the operand.  Two facts read its result at one operand
position `i`:

* no update position lands on `i`: the result at `i` is the operand's element;
* exactly one update position `j` lands on `i` and the body returns the update (a "set"): the
  result at `i` is the update's element at `j`.
-/

namespace Cert.LibScatterSet

open Idealize.ShloMosaic

variable {s si u : Shape} {α : Type} {w : Nat}

/-- One step of the scatter fold: the update at row-major position `n` rewrites the element
    it lands on, if it lands inside the operand. -/
def step (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

/-- The scatter is the fold of `step`. -/
theorem scatter_eq_foldl (d : ScatterDims s si u) (f : α → α → α) (x : s.Idx → α) (idx : IVec si w)
    (upd : u.Idx → α) :
    Host.scatter d f x idx upd = (List.finRange u.numel).foldl (step d f idx upd) x := rfl

/-- A step whose update does not land on `i` leaves the element at `i` unchanged. -/
theorem step_apply_of_ne (d : ScatterDims s si u) (f : α → α → α) (idx : IVec si w) (upd : u.Idx → α)
    (r : s.Idx → α) (n : Fin u.numel) (i : s.Idx)
    (h : d.resultIdx? (u.rowMajor.symm n) idx ≠ some i) : step d f idx upd r n i = r i := by
  unfold step
  generalize d.resultIdx? (u.rowMajor.symm n) idx = o at h
  cases o with
  | none => rfl
  | some i0 =>
    have hne : i ≠ i0 := fun e => h (by rw [e])
    show (if i = i0 then _ else r i) = r i
    rw [if_neg hne]

/-- A step whose update lands on `i` writes the body's value there. -/
theorem step_apply_of_eq (d : ScatterDims s si u) (f : α → α → α) (idx : IVec si w) (upd : u.Idx → α)
    (r : s.Idx → α) (n : Fin u.numel) (i : s.Idx)
    (h : d.resultIdx? (u.rowMajor.symm n) idx = some i) :
    step d f idx upd r n i = f (r i) (upd (u.rowMajor.symm n)) := by
  unfold step
  rw [h]
  show (if i = i then _ else r i) = _
  rw [if_pos rfl]

/-- Folding steps none of whose updates lands on `i` leaves the element at `i` unchanged. -/
theorem foldl_apply_of_miss (d : ScatterDims s si u) (f : α → α → α) (idx : IVec si w) (upd : u.Idx → α)
    (i : s.Idx) (l : List (Fin u.numel)) (r : s.Idx → α)
    (h : ∀ n ∈ l, d.resultIdx? (u.rowMajor.symm n) idx ≠ some i) :
    l.foldl (step d f idx upd) r i = r i := by
  induction l generalizing r with
  | nil => rfl
  | cons a l ih =>
    rw [List.foldl_cons, ih _ (fun n hn => h n (List.mem_cons_of_mem _ hn))]
    exact step_apply_of_ne d f idx upd r a i (h a List.mem_cons_self)

/-- Folding "set" steps over a list without repeats in which exactly one position `n0` lands on
    `i`: the element at `i` is the update's at `n0`. -/
theorem foldl_set_apply_of_hit (d : ScatterDims s si u) (idx : IVec si w) (upd : u.Idx → α)
    (i : s.Idx) (n0 : Fin u.numel) (l : List (Fin u.numel)) (r : s.Idx → α) (hnd : l.Nodup) (hmem : n0 ∈ l)
    (hhit : d.resultIdx? (u.rowMajor.symm n0) idx = some i)
    (huniq : ∀ n ∈ l, d.resultIdx? (u.rowMajor.symm n) idx = some i → n = n0) :
    l.foldl (step d (fun _ b => b) idx upd) r i = upd (u.rowMajor.symm n0) := by
  induction l generalizing r with
  | nil => exact absurd hmem List.not_mem_nil
  | cons a l ih =>
    rw [List.foldl_cons]
    have hnd' := List.nodup_cons.1 hnd
    by_cases ha : a = n0
    · subst ha
      rw [foldl_apply_of_miss d _ idx upd i l _ (fun n hn e => hnd'.1 (huniq n (List.mem_cons_of_mem _ hn) e ▸ hn))]
      exact step_apply_of_eq d _ idx upd r a i hhit
    · have hmem' : n0 ∈ l := by
        rcases List.mem_cons.1 hmem with e | e
        · exact absurd e.symm ha
        · exact e
      exact ih _ hnd'.2 hmem' (fun n hn => huniq n (List.mem_cons_of_mem _ hn))

/-- **Where an update lands.**  Update position `j` lands on operand position `i` exactly when, on
    every operand axis, the window's start plus the window coordinate is `i`'s coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h a
    split at h
    · next hin =>
      have he := Option.some.inj h
      have hv : ((d.start j idx a + (d.window j a : Int)).toNat) = (i a).val := by rw [← he]
      have := (hin a).1
      omega
    · exact absurd h (by simp)
  · intro h
    have hin : ∀ a, 0 ≤ d.start j idx a + (d.window j a : Int) ∧ d.start j idx a + (d.window j a : Int) < s.size a := by
      intro a
      have := (i a).isLt
      rw [h a]
      omega
    rw [dif_pos hin]
    congr 1
    funext a
    refine Fin.ext ?_
    show (d.start j idx a + (d.window j a : Int)).toNat = (i a).val
    rw [h a]
    exact Int.toNat_natCast _

/-- **A scatter read where no update lands.**  If no update position lands on operand position
    `i`, the scatter's result at `i` is the operand's element, whatever the body `f`. -/
theorem scatter_apply_of_miss (d : ScatterDims s si u) (f : α → α → α) (x : s.Idx → α) (idx : IVec si w)
    (upd : u.Idx → α) (i : s.Idx) (hmiss : ∀ j : u.Idx, d.resultIdx? j idx ≠ some i) :
    Host.scatter d f x idx upd i = x i := by
  rw [scatter_eq_foldl]
  exact foldl_apply_of_miss d f idx upd i _ x (fun n _ => hmiss _)

/-- **A "set" scatter read where exactly one update lands.**  If update position `j` lands on
    operand position `i` and no other does, the result at `i` of the scatter whose body returns
    the update is the update's element at `j`. -/
theorem scatter_set_apply_of_hit (d : ScatterDims s si u) (x : s.Idx → α) (idx : IVec si w)
    (upd : u.Idx → α) (i : s.Idx) (j : u.Idx) (hj : d.resultIdx? j idx = some i)
    (huniq : ∀ j' : u.Idx, d.resultIdx? j' idx = some i → j' = j) :
    Host.scatter d (fun _ b => b) x idx upd i = upd j := by
  rw [scatter_eq_foldl]
  have h := foldl_set_apply_of_hit d idx upd i (u.rowMajor j) (List.finRange u.numel) x
    (List.nodup_finRange _) (List.mem_finRange _) (by rw [Equiv.symm_apply_apply]; exact hj)
    (fun n _ hn => by
      have := huniq _ hn
      rw [← this, Equiv.apply_symm_apply])
  rw [h, Equiv.symm_apply_apply]

end Cert.LibScatterSet
-- ==== Proof.ScatterPad.lean ====
import proofs.«181711_j77154792506118_1_alg».proof.KernelIdeal
import proofs.«181711_j77154792506118_1_alg».proof.Proof.LibScatterSet
import Idealize.ShloMosaic.Lib.ValueIdx

/-!
# The program's zero-padding scatters, read at an index

The host part of the program pads its arguments with `stablehlo.scatter`s whose body returns the
update ("set").  Two kinds occur:

* no scatter index at all and a window that is the whole operand: update position `j` lands on
  operand position `j`, so the result is the update;
* one scatter index, the constant `0`, naming operand axis `0`, and a window of 121 rows: update
  position `(r, c)` lands on operand position `(r, c)`, so rows `0 … 120` of the result are the
  update's and rows `121 … 127` the operand's.
-/

namespace Cert.KernelIdeal.ScatterPad

open Cert.KernelIdeal Idealize.ShloMosaic Idealize.ShloMosaic.ValueIdx Cert.LibScatterSet

variable [Facts₀] {α : Type}

/-! ## Windows that are the whole operand -/

/-- With no scatter index every start is `0`, and the window axes are the operand's axes in
    order: update position `j` lands on operand position `j`. -/
theorem resultIdx?_full_40000x128 (j : S40000x128.Idx) (idx : IVec S0 32) :
    scatter_S40000x128_S0_S40000x128_01_n_n_0.resultIdx? j idx = some j := by
  rw [resultIdx?_eq_some_iff]
  intro a
  match a with
  | ⟨0, _⟩ => show (0 : Int) + ((j 0).val : Int) = ((j 0).val : Int); exact Int.zero_add _
  | ⟨1, _⟩ => show (0 : Int) + ((j 1).val : Int) = ((j 1).val : Int); exact Int.zero_add _

/-- The same for the 128 × 128 operand. -/
theorem resultIdx?_full_128x128 (j : S128x128.Idx) (idx : IVec S0 32) :
    scatter_S128x128_S0_S128x128_01_n_n_0.resultIdx? j idx = some j := by
  rw [resultIdx?_eq_some_iff]
  intro a
  match a with
  | ⟨0, _⟩ => show (0 : Int) + ((j 0).val : Int) = ((j 0).val : Int); exact Int.zero_add _
  | ⟨1, _⟩ => show (0 : Int) + ((j 1).val : Int) = ((j 1).val : Int); exact Int.zero_add _

/-- The same for the length-128 operand. -/
theorem resultIdx?_full_128 (j : S128.Idx) (idx : IVec S0 32) :
    scatter_S128_S0_S128_0_n_n_0.resultIdx? j idx = some j := by
  rw [resultIdx?_eq_some_iff]
  intro a
  match a with
  | ⟨0, _⟩ => show (0 : Int) + ((j 0).val : Int) = ((j 0).val : Int); exact Int.zero_add _

/-- A "set" scatter whose window is the whole 40000 × 128 operand returns the update. -/
theorem full_40000x128 (x0 u : S40000x128.Idx → α) (idx : IVec S0 32) :
    Host.scatter scatter_S40000x128_S0_S40000x128_01_n_n_0 (fun _ b => b) x0 idx u = u := by
  funext i
  refine scatter_set_apply_of_hit _ x0 idx u i i (resultIdx?_full_40000x128 i idx) (fun j' h => ?_)
  rw [resultIdx?_full_40000x128] at h
  exact Option.some.inj h

/-- A "set" scatter whose window is the whole 128 × 128 operand returns the update. -/
theorem full_128x128 (x0 u : S128x128.Idx → α) (idx : IVec S0 32) :
    Host.scatter scatter_S128x128_S0_S128x128_01_n_n_0 (fun _ b => b) x0 idx u = u := by
  funext i
  refine scatter_set_apply_of_hit _ x0 idx u i i (resultIdx?_full_128x128 i idx) (fun j' h => ?_)
  rw [resultIdx?_full_128x128] at h
  exact Option.some.inj h

/-- A "set" scatter whose window is the whole length-128 operand returns the update. -/
theorem full_128 (x0 u : S128.Idx → α) (idx : IVec S0 32) :
    Host.scatter scatter_S128_S0_S128_0_n_n_0 (fun _ b => b) x0 idx u = u := by
  funext i
  refine scatter_set_apply_of_hit _ x0 idx u i i (resultIdx?_full_128 i idx) (fun j' h => ?_)
  rw [resultIdx?_full_128] at h
  exact Option.some.inj h

/-! ## A window of 121 rows at start `0` -/

/-- With the one scatter index `0` naming operand axis `0`, update position `j` of the 121 × 128
    window lands on operand position `i` exactly when the two have the same coordinates. -/
theorem resultIdx?_pad_121x128_iff (idx : IVec S1 32) (hidx : ∀ k, idx k = 0#32) (j : S121x128.Idx)
    (i : S128x128.Idx) :
    scatter_S128x128_S1_S121x128_01_n_0_0.resultIdx? j idx = some i ↔
      (j 0).val = (i 0).val ∧ (j 1).val = (i 1).val := by
  rw [resultIdx?_eq_some_iff]
  have h0 : scatter_S128x128_S1_S121x128_01_n_0_0.start j idx 0 = 0 := by
    show (idx _).toInt = 0
    rw [hidx]; rfl
  constructor
  · intro h
    have e0 := h 0
    have e1 := h 1
    rw [h0] at e0
    have e0' : (0 : Int) + ((j 0).val : Int) = ((i 0).val : Int) := e0
    have e1' : (0 : Int) + ((j 1).val : Int) = ((i 1).val : Int) := e1
    omega
  · rintro ⟨e0, e1⟩ a
    match a with
    | ⟨0, _⟩ =>
      show scatter_S128x128_S1_S121x128_01_n_0_0.start j idx 0 + ((j 0).val : Int) = ((i 0).val : Int)
      rw [h0]; omega
    | ⟨1, _⟩ =>
      show (0 : Int) + ((j 1).val : Int) = ((i 1).val : Int)
      omega

/-- Update position `j` of the 121 × 128 window lands on the operand position with the same
    coordinates. -/
theorem resultIdx?_pad_121x128 (idx : IVec S1 32) (hidx : ∀ k, idx k = 0#32) (j : S121x128.Idx) :
    scatter_S128x128_S1_S121x128_01_n_0_0.resultIdx? j idx =
      some (ix2 ⟨(j 0).val, Nat.lt_trans (idx2_lt0 j) (by decide)⟩ (j 1)) :=
  (resultIdx?_pad_121x128_iff idx hidx j _).2 ⟨rfl, rfl⟩

/-- The same for the length-121 window of the length-128 operand. -/
theorem resultIdx?_pad_121_iff (idx : IVec S1 32) (hidx : ∀ k, idx k = 0#32) (j : S121.Idx) (i : S128.Idx) :
    scatter_S128_S1_S121_0_n_0_0.resultIdx? j idx = some i ↔ (j 0).val = (i 0).val := by
  rw [resultIdx?_eq_some_iff]
  have h0 : scatter_S128_S1_S121_0_n_0_0.start j idx 0 = 0 := by
    show (idx _).toInt = 0
    rw [hidx]; rfl
  constructor
  · intro h
    have e0 := h 0
    rw [h0] at e0
    have e0' : (0 : Int) + ((j 0).val : Int) = ((i 0).val : Int) := e0
    omega
  · intro e0 a
    match a with
    | ⟨0, _⟩ =>
      show scatter_S128_S1_S121_0_n_0_0.start j idx 0 + ((j 0).val : Int) = ((i 0).val : Int)
      rw [h0]; omega

/-- Update position `j` of the length-121 window lands on the operand position with the same
    coordinate. -/
theorem resultIdx?_pad_121 (idx : IVec S1 32) (hidx : ∀ k, idx k = 0#32) (j : S121.Idx) :
    scatter_S128_S1_S121_0_n_0_0.resultIdx? j idx =
      some (ix1 ⟨(j 0).val, Nat.lt_trans (j 0).isLt (by decide)⟩) :=
  (resultIdx?_pad_121_iff idx hidx j _).2 rfl

/-- **The 121 × 128 update set into a 128 × 128 operand at row `0`**: rows below 121 read the
    update, the others the operand. -/
theorem pad_121x128 (x0 : S128x128.Idx → α) (idx : IVec S1 32) (hidx : ∀ k, idx k = 0#32)
    (u : S121x128.Idx → α) (p : Fin 128) (q : Fin 128) :
    Host.scatter scatter_S128x128_S1_S121x128_01_n_0_0 (fun _ b => b) x0 idx u (ix2 p q) =
      if h : p.val < 121 then u (ix2 ⟨p.val, h⟩ q) else x0 (ix2 p q) := by
  by_cases h : p.val < 121
  · rw [dif_pos h]
    refine scatter_set_apply_of_hit _ x0 idx u _ (ix2 ⟨p.val, h⟩ q)
      ((resultIdx?_pad_121x128_iff idx hidx _ _).2 ⟨rfl, rfl⟩) (fun j' hj' => ?_)
    obtain ⟨e0, e1⟩ := (resultIdx?_pad_121x128_iff idx hidx _ _).1 hj'
    rw [eq_ix2 j']
    congr 1
    · exact Fin.ext e0
    · exact Fin.ext e1
  · rw [dif_neg h]
    refine scatter_apply_of_miss _ _ x0 idx u _ (fun j hj => ?_)
    obtain ⟨e0, _⟩ := (resultIdx?_pad_121x128_iff idx hidx _ _).1 hj
    have hlt := idx2_lt0 j
    have e0' : (j 0).val = p.val := e0
    omega

/-- **The length-121 update set into a length-128 operand at position `0`**: positions below 121
    read the update, the others the operand. -/
theorem pad_121 (x0 : S128.Idx → α) (idx : IVec S1 32) (hidx : ∀ k, idx k = 0#32) (u : S121.Idx → α)
    (p : Fin 128) :
    Host.scatter scatter_S128_S1_S121_0_n_0_0 (fun _ b => b) x0 idx u (ix1 p) =
      if h : p.val < 121 then u (ix1 ⟨p.val, h⟩) else x0 (ix1 p) := by
  by_cases h : p.val < 121
  · rw [dif_pos h]
    refine scatter_set_apply_of_hit _ x0 idx u _ (ix1 ⟨p.val, h⟩)
      ((resultIdx?_pad_121_iff idx hidx _ _).2 rfl) (fun j' hj' => ?_)
    have e0 := (resultIdx?_pad_121_iff idx hidx _ _).1 hj'
    rw [eq_ix1 j']
    congr 1
    exact Fin.ext e0
  · rw [dif_neg h]
    refine scatter_apply_of_miss _ _ x0 idx u _ (fun j hj => ?_)
    have e0 : (j 0).val = p.val := (resultIdx?_pad_121_iff idx hidx _ _).1 hj
    have hlt : (j 0).val < 121 := (j 0).isLt
    omega

end Cert.KernelIdeal.ScatterPad
-- ==== Proof.RegionPayload.lean ====
/-
  One 4000-row block of a layer's linear stage, entry by entry.

  The body of either region multiplies a block of aggregated features and a block of node features, each
  4000 × 128, by a 128 × 128 weight matrix, adds a bias row to each product and adds the two; the first
  region then clamps at zero. Read at row `p` and column `q` of the block the value it stores is

      (∑ₖ a(p,k) · wl(k,q) + bl(0,q)) + ∑ₖ x(p,k) · wr(k,q) + br(0,q)

  (its maximum with 0 in the first region): a matrix product into a zero accumulator is the plain sum over
  the contracted channel, the bias row is repeated down the rows, and the identity reshapes change nothing.
-/
import proofs.«181711_j77154792506118_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.ValueIdx

/-- The dimension numbers of the block product: rows × channels times channels × columns. -/
abbrev blockDot : DotDims S4000x128 S128x128 S4000x128 := dot_S4000x128_S128x128_S4000x128_1_0_0_1_n_n

/-- The left operand's row, at any output entry and contraction index, is the output's row … -/
theorem blockDot_lhs_row (i : S4000x128.Idx) (κ : blockDot.contr.Idx) : (blockDot.lhsIdx i κ 0).val = (i 0).val := by
  unfold DotDims.lhsIdx
  rw [dif_neg (show ¬(0 : Fin S4000x128.rank) ∈ blockDot.lhsBatch by decide),
    dif_pos (show (0 : Fin S4000x128.rank) ∈ blockDot.lhsNonContracting by decide)]
  rfl

/-- … its column is the contracted channel … -/
theorem blockDot_lhs_col (i : S4000x128.Idx) (κ : blockDot.contr.Idx) :
    (blockDot.lhsIdx i κ 1).val = (κ ⟨0, by decide⟩).val :=
  blockDot.lhsIdx_val_of_single rfl i κ

/-- … the right operand's row is the contracted channel … -/
theorem blockDot_rhs_row (i : S4000x128.Idx) (κ : blockDot.contr.Idx) :
    (blockDot.rhsIdx i κ 0).val = (κ ⟨0, by decide⟩).val :=
  blockDot.rhsIdx_val_of_single rfl i κ

/-- … and its column is the output's column. -/
theorem blockDot_rhs_col (i : S4000x128.Idx) (κ : blockDot.contr.Idx) : (blockDot.rhsIdx i κ 1).val = (i 1).val := by
  unfold DotDims.rhsIdx
  rw [dif_neg (show ¬(1 : Fin S128x128.rank) ∈ blockDot.rhsBatch by decide),
    dif_pos (show (1 : Fin S128x128.rank) ∈ blockDot.rhsNonContracting by decide)]
  rfl

/-- So at output entry (p, q) and channel k the left operand is read at (p, k) … -/
theorem blockDot_lhs (p : Fin 4000) (q : Fin 128) (k : Fin 128) :
    blockDot.lhsIdx (ix2 p q) ((contrEquiv1 blockDot 128 rfl rfl).symm k) = ix2 p k := by
  have hk := contrEquiv1_symm_val blockDot 128 rfl rfl k
  exact funext fun a => Fin.ext (by
    match a with
    | ⟨0, _⟩ => exact blockDot_lhs_row _ _
    | ⟨1, _⟩ => exact (blockDot_lhs_col _ _).trans hk)

/-- … and the right operand at (k, q). -/
theorem blockDot_rhs (p : Fin 4000) (q : Fin 128) (k : Fin 128) :
    blockDot.rhsIdx (ix2 p q) ((contrEquiv1 blockDot 128 rfl rfl).symm k) = ix2 k q := by
  have hk := contrEquiv1_symm_val blockDot 128 rfl rfl k
  exact funext fun a => Fin.ext (by
    match a with
    | ⟨0, _⟩ => exact (blockDot_rhs_row _ _).trans hk
    | ⟨1, _⟩ => exact blockDot_rhs_col _ _)

/-- A block product into the zero accumulator, at entry (p, q): the sum over the 128 channels. -/
theorem blockProduct_apply (l : FVec Ideal S4000x128 .bf16) (r : FVec Ideal S128x128 .bf16) (p : Fin 4000) (q : Fin 128) :
    matmul blockDot none l r (constant (F := Ideal) S4000x128 .f32 0x00000000#32) (ix2 p q)
      = ∑ k : Fin 128, l (ix2 p k) * r (ix2 k q) := by
  refine (Ideal.matmul_constant_zero_apply blockDot none l r (ix2 p q)).trans ?_
  rw [← Equiv.sum_comp (contrEquiv1 blockDot 128 rfl rfl).symm]
  refine Finset.sum_congr rfl fun k _ => ?_
  rw [blockDot_lhs p q k, blockDot_rhs p q k]

/-- A bias row repeated down the 4000 rows, at entry (p, q): the row's entry q. -/
theorem biasRows_apply (b : FVec Ideal S1x128 .f32) (p : Fin 4000) (q : Fin 128) :
    broadcastTo S4000x128 b broadcasts_S1x128_S4000x128 (ix2 p q) = b (ix2 (0 : Fin 1) q) :=
  broadcastTo_apply b broadcasts_S1x128_S4000x128 (ix2 p q) (ix2 (0 : Fin 1) q) (fun a => by
    match a with
    | ⟨0, _⟩ => rfl
    | ⟨1, _⟩ => rfl)

/-- The linear stage of one block at entry (p, q), as the second region stores it. -/
theorem linBlock_apply (x0 : Vec Ideal S4000x128 .bf16) (x2 : Vec Ideal S128x128 .bf16) (x1 : Vec Ideal S4000x128 .bf16)
    (x4 : Vec Ideal S128x128 .bf16) (x3 : Vec Ideal S1x128 .f32) (x5 : Vec Ideal S1x128 .f32) (p : Fin 4000) (q : Fin 128) :
    k1_pay1 (F := Ideal) x0 x2 x1 x4 x3 x5 (ix2 p q)
      = ((∑ k : Fin 128, x0 (ix2 p k) * x2 (ix2 k q)) + x3 (ix2 (0 : Fin 1) q))
        + (∑ k : Fin 128, x1 (ix2 p k) * x4 (ix2 k q)) + x5 (ix2 (0 : Fin 1) q) := by
  unfold k1_pay1
  simp only [shapeCast_self]
  show ((matmul blockDot none x0 x2 (constant (F := Ideal) S4000x128 .f32 0x00000000#32) (ix2 p q)
        + broadcastTo S4000x128 x3 broadcasts_S1x128_S4000x128 (ix2 p q))
      + matmul blockDot none x1 x4 (constant (F := Ideal) S4000x128 .f32 0x00000000#32) (ix2 p q))
      + broadcastTo S4000x128 x5 broadcasts_S1x128_S4000x128 (ix2 p q) = _
  rw [blockProduct_apply, blockProduct_apply, biasRows_apply, biasRows_apply]

/-- The same clamped at zero, as the first region stores it. -/
theorem reluBlock_apply (x0 : Vec Ideal S4000x128 .bf16) (x2 : Vec Ideal S128x128 .bf16) (x1 : Vec Ideal S4000x128 .bf16)
    (x4 : Vec Ideal S128x128 .bf16) (x3 : Vec Ideal S1x128 .f32) (x5 : Vec Ideal S1x128 .f32) (p : Fin 4000) (q : Fin 128) :
    k0_pay1 (F := Ideal) x0 x2 x1 x4 x3 x5 (ix2 p q)
      = max (((∑ k : Fin 128, x0 (ix2 p k) * x2 (ix2 k q)) + x3 (ix2 (0 : Fin 1) q))
        + (∑ k : Fin 128, x1 (ix2 p k) * x4 (ix2 k q)) + x5 (ix2 (0 : Fin 1) q)) 0 := by
  have h := linBlock_apply x0 x2 x1 x4 x3 x5 p q
  unfold k1_pay1 at h
  unfold k0_pay1
  show max _ (Ideal.ofBits .f32 0x00000000#32) = _
  rw [Ideal.ofBits_zero_f32]
  exact congrArg (max · 0) h

end Cert.KernelIdeal.RegionValue

end
-- ==== Proof.Lin.lean ====
/-
  The linear stage of one graph-convolution layer, as one function of whole arrays read index by index:
  entry (i, j) of the result is

      (∑ₖ a(i,k) · wl(k,j)  +  bl(0,j))  +  ∑ₖ x(i,k) · wr(k,j)  +  br(0,j),

  the aggregated features `a` against the left weights, the node's own features `x` against the right
  weights, and the two bias rows, added in this order. Everything is over the extended reals; sums range
  over the 128 feature channels.
-/
import Idealize.ShloMosaic.PureOps.Ideal
import Idealize.ShloMosaic.Lib.ValueIdx

noncomputable section

namespace Cert.Sage

open Idealize.ShloMosaic Idealize.ShloMosaic.ValueIdx

/-- The linear stage over `R` rows and `C` output columns (128 input channels), index by index. -/
def lin {R C : Nat} (a x : (⟨2, ![R, 128]⟩ : Shape).Idx → EReal) (wl : (⟨2, ![128, C]⟩ : Shape).Idx → EReal)
    (bl : (⟨2, ![1, C]⟩ : Shape).Idx → EReal) (wr : (⟨2, ![128, C]⟩ : Shape).Idx → EReal)
    (br : (⟨2, ![1, C]⟩ : Shape).Idx → EReal) : (⟨2, ![R, C]⟩ : Shape).Idx → EReal :=
  fun y => ((∑ k : Fin 128, a (ix2 (y 0) k) * wl (ix2 k (y 1))) + bl (ix2 (0 : Fin 1) (y 1)))
    + (∑ k : Fin 128, x (ix2 (y 0) k) * wr (ix2 k (y 1))) + br (ix2 (0 : Fin 1) (y 1))

end Cert.Sage

end
-- ==== Proof.RegionValue.lean ====
/-
  Each region's result as one whole-array function of the arrays it finds.

  A region walks ten grid points; point `t` stages rows 4000·t … 4000·t + 3999 of the aggregated features and
  of the node features, the two whole weight matrices and the two bias rows, and writes the same rows of its
  result. Entry (p, q) of the block it writes depends only on row p of the two staged feature blocks, that is
  on row 4000·t + p of the feature arrays, on column q of the weights and on entry q of the bias rows: it is
  entry (4000·t + p, q) of the linear stage of the whole arrays (clamped at zero in the first region). Every
  row r of the result lies in the block of point r / 4000, so the ten blocks tile the result and the array ends
  as that one function.
-/
import proofs.«181711_j77154792506118_1_alg».proof.Proof.Gen.KernelIdeal.Frame
import proofs.«181711_j77154792506118_1_alg».proof.Proof.RegionPayload
import proofs.«181711_j77154792506118_1_alg».proof.Proof.Lin
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeroOffsets : (![0, 0] : Fin 2 → Nat) = fun _ => 0 := funext fun a => by fin_cases a <;> rfl

/-! ## One entry of a written block from one row of the staged blocks -/

/-- Entry (p, q) of what the first region's body stores, when row p of its two feature blocks is row r of the
    feature arrays and column q of the staged weights and bias rows is column s of the arrays': entry (r, s) of
    the clamped linear stage. -/
theorem reluBlock_entry (x0 : Vec Ideal S4000x128 .bf16) (x2 : Vec Ideal S128x128 .bf16) (x1 : Vec Ideal S4000x128 .bf16)
    (x4 : Vec Ideal S128x128 .bf16) (x3 : Vec Ideal S1x128 .f32) (x5 : Vec Ideal S1x128 .f32)
    (a x : S40000x128.Idx → EReal) (wl : S128x128.Idx → EReal) (bl : S1x128.Idx → EReal) (wr : S128x128.Idx → EReal)
    (br : S1x128.Idx → EReal) (p : Fin 4000) (q : Fin 128) (r : Fin 40000) (s : Fin 128)
    (h0 : ∀ k : Fin 128, x0 (ix2 p k) = a (ix2 r k)) (h1 : ∀ k : Fin 128, x1 (ix2 p k) = x (ix2 r k))
    (h2 : ∀ k : Fin 128, x2 (ix2 k q) = wl (ix2 k s)) (h4 : ∀ k : Fin 128, x4 (ix2 k q) = wr (ix2 k s))
    (h3 : x3 (ix2 (0 : Fin 1) q) = bl (ix2 (0 : Fin 1) s)) (h5 : x5 (ix2 (0 : Fin 1) q) = br (ix2 (0 : Fin 1) s)) :
    k0_pay1 (F := Ideal) x0 x2 x1 x4 x3 x5 (ix2 p q) = max (Cert.Sage.lin a x wl bl wr br (ix2 r s)) 0 := by
  refine (reluBlock_apply x0 x2 x1 x4 x3 x5 p q).trans ?_
  have e0 : (∑ k : Fin 128, x0 (ix2 p k) * x2 (ix2 k q)) = ∑ k : Fin 128, a (ix2 r k) * wl (ix2 k s) :=
    Finset.sum_congr rfl fun k _ => by rw [h0 k, h2 k]
  have e1 : (∑ k : Fin 128, x1 (ix2 p k) * x4 (ix2 k q)) = ∑ k : Fin 128, x (ix2 r k) * wr (ix2 k s) :=
    Finset.sum_congr rfl fun k _ => by rw [h1 k, h4 k]
  rw [e0, e1, h3, h5]
  rfl

/-- The same for the second region, which does not clamp. -/
theorem linBlock_entry (x0 : Vec Ideal S4000x128 .bf16) (x2 : Vec Ideal S128x128 .bf16) (x1 : Vec Ideal S4000x128 .bf16)
    (x4 : Vec Ideal S128x128 .bf16) (x3 : Vec Ideal S1x128 .f32) (x5 : Vec Ideal S1x128 .f32)
    (a x : S40000x128.Idx → EReal) (wl : S128x128.Idx → EReal) (bl : S1x128.Idx → EReal) (wr : S128x128.Idx → EReal)
    (br : S1x128.Idx → EReal) (p : Fin 4000) (q : Fin 128) (r : Fin 40000) (s : Fin 128)
    (h0 : ∀ k : Fin 128, x0 (ix2 p k) = a (ix2 r k)) (h1 : ∀ k : Fin 128, x1 (ix2 p k) = x (ix2 r k))
    (h2 : ∀ k : Fin 128, x2 (ix2 k q) = wl (ix2 k s)) (h4 : ∀ k : Fin 128, x4 (ix2 k q) = wr (ix2 k s))
    (h3 : x3 (ix2 (0 : Fin 1) q) = bl (ix2 (0 : Fin 1) s)) (h5 : x5 (ix2 (0 : Fin 1) q) = br (ix2 (0 : Fin 1) s)) :
    k1_pay1 (F := Ideal) x0 x2 x1 x4 x3 x5 (ix2 p q) = Cert.Sage.lin a x wl bl wr br (ix2 r s) := by
  refine (linBlock_apply x0 x2 x1 x4 x3 x5 p q).trans ?_
  have e0 : (∑ k : Fin 128, x0 (ix2 p k) * x2 (ix2 k q)) = ∑ k : Fin 128, a (ix2 r k) * wl (ix2 k s) :=
    Finset.sum_congr rfl fun k _ => by rw [h0 k, h2 k]
  have e1 : (∑ k : Fin 128, x1 (ix2 p k) * x4 (ix2 k q)) = ∑ k : Fin 128, x (ix2 r k) * wr (ix2 k s) :=
    Finset.sum_congr rfl fun k _ => by rw [h1 k, h4 k]
  rw [e0, e1, h3, h5]
  rfl

/-! ## The first region -/

/-- What the first region's result ends holding: the clamped linear stage of the arrays the region finds. -/
abbrev relu0 (c : Dev nD) : S40000x128.Idx → EReal := fun y =>
  max (Cert.Sage.lin (R := 40000) (C := 128) (V c main_v39) (V c main_v40) (V c main_v30) (V c main_v31) (V c main_v37) (V c main_v38) y) 0

/-- The block indices over the ten points: the feature windows and the result move one block of rows per
    point, the weights and bias rows stay at block (0, 0). -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of the aggregated-feature block staged at point `t` is row 4000·t + p of the array. -/
theorem aggRows0 (c : Dev nD) (t : Fin cfg0.N) (p : Fin 4000) (k : Fin 128) (r : Fin 40000) (hr : r.val = t.val * 4000 + p.val) :
    iblk0 V c 0 t (ix2 p k) = V c main_v39 (ix2 r k) := by
  obtain ⟨e0, e1, -⟩ := blockIndex0 t
  show V c main_v39 (((cfg0.win 0).blk t).view.emb (ix2 p k)) = V c main_v39 (ix2 r k)
  refine congrArg (V c main_v39) (funext fun a => Fin.ext ?_)
  match a with
  | ⟨0, _⟩ => show win0_0.index t (0 : Fin 2) * 4000 + 1 * p.val = r.val; omega
  | ⟨1, _⟩ => show win0_0.index t (1 : Fin 2) * 128 + 1 * k.val = k.val; omega

/-- Row p of the node-feature block staged at point `t` is row 4000·t + p of the array. -/
theorem nodeRows0 (c : Dev nD) (t : Fin cfg0.N) (p : Fin 4000) (k : Fin 128) (r : Fin 40000) (hr : r.val = t.val * 4000 + p.val) :
    iblk0 V c 1 t (ix2 p k) = V c main_v40 (ix2 r k) := by
  obtain ⟨-, -, e0, e1, -⟩ := blockIndex0 t
  show V c main_v40 (((cfg0.win 1).blk t).view.emb (ix2 p k)) = V c main_v40 (ix2 r k)
  refine congrArg (V c main_v40) (funext fun a => Fin.ext ?_)
  match a with
  | ⟨0, _⟩ => show win0_1.index t (0 : Fin 2) * 4000 + 1 * p.val = r.val; omega
  | ⟨1, _⟩ => show win0_1.index t (1 : Fin 2) * 128 + 1 * k.val = k.val; omega

/-- The left weights are staged whole at every point. -/
theorem leftWeights0 (c : Dev nD) (t : Fin cfg0.N) (k q : Fin 128) : iblk0 V c 2 t (ix2 k q) = V c main_v30 (ix2 k q) := by
  obtain ⟨-, -, -, -, e0, e1, -⟩ := blockIndex0 t
  show V c main_v30 (((cfg0.win 2).blk t).view.emb (ix2 k q)) = V c main_v30 (ix2 k q)
  refine congrArg (V c main_v30) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- So is the left bias row. -/
theorem leftBias0 (c : Dev nD) (t : Fin cfg0.N) (z : Fin 1) (q : Fin 128) : iblk0 V c 3 t (ix2 z q) = V c main_v31 (ix2 z q) := by
  obtain ⟨-, -, -, -, -, -, e0, e1, -⟩ := blockIndex0 t
  show V c main_v31 (((cfg0.win 3).blk t).view.emb (ix2 z q)) = V c main_v31 (ix2 z q)
  refine congrArg (V c main_v31) (funext fun a => Fin.ext ?_)
  match a with
  | ⟨0, _⟩ => show win0_3.index t (0 : Fin 2) * 1 + 1 * z.val = z.val; omega
  | ⟨1, _⟩ => show win0_3.index t (1 : Fin 2) * 128 + 1 * q.val = q.val; omega

/-- So are the right weights … -/
theorem rightWeights0 (c : Dev nD) (t : Fin cfg0.N) (k q : Fin 128) : iblk0 V c 4 t (ix2 k q) = V c main_v37 (ix2 k q) := by
  obtain ⟨-, -, -, -, -, -, -, -, e0, e1, -⟩ := blockIndex0 t
  show V c main_v37 (((cfg0.win 4).blk t).view.emb (ix2 k q)) = V c main_v37 (ix2 k q)
  refine congrArg (V c main_v37) (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

/-- … and the right bias row. -/
theorem rightBias0 (c : Dev nD) (t : Fin cfg0.N) (z : Fin 1) (q : Fin 128) : iblk0 V c 5 t (ix2 z q) = V c main_v38 (ix2 z q) := by
  obtain ⟨-, -, -, -, -, -, -, -, -, -, e0, e1, -⟩ := blockIndex0 t
  show V c main_v38 (((cfg0.win 5).blk t).view.emb (ix2 z q)) = V c main_v38 (ix2 z q)
  refine congrArg (V c main_v38) (funext fun a => Fin.ext ?_)
  match a with
  | ⟨0, _⟩ => show win0_5.index t (0 : Fin 2) * 1 + 1 * z.val = z.val; omega
  | ⟨1, _⟩ => show win0_5.index t (1 : Fin 2) * 128 + 1 * q.val = q.val; omega

/-- What point `t` writes back is block `t` of `relu0`. -/
theorem flushed0 (c : Dev nD) (t : Fin cfg0.N) :
    (dat0 (F := Ideal) V c).flushed 6 t = ((cfg0.win 6).blk t).view.read (Elt Ideal) (relu0 V c) := by
  show (cfg0.win 6).cut (grid0.coords t) ((dat0 (F := Ideal) V c).after 6 t) = _
  rw [after0_6]
  unfold out0_6
  rw [View.canon_unit_zero zeroOffsets]
  simp only [View.ld_unit_zero (S := S4000x128) zeroOffsets, View.ld_unit_zero (S := S128x128) zeroOffsets,
    View.ld_unit_zero (S := S1x128) zeroOffsets]
  obtain ⟨-, -, -, -, -, -, -, -, -, -, -, -, e60, e61⟩ := blockIndex0 t
  funext j
  have hj0 : (j 0).val < 4000 := (j 0).isLt
  have hj1 : (j 1).val < 128 := (j 1).isLt
  have ht : t.val < 10 := lt_of_lt_of_eq t.isLt N_0
  obtain ⟨p, hp⟩ : ∃ p : Fin 4000, p.val = (j 0).val := ⟨⟨_, hj0⟩, rfl⟩
  obtain ⟨q, hq⟩ : ∃ q : Fin 128, q.val = (j 1).val := ⟨⟨_, hj1⟩, rfl⟩
  obtain ⟨r, hr⟩ : ∃ r : Fin 40000, r.val = t.val * 4000 + p.val := ⟨⟨t.val * 4000 + p.val, by omega⟩, rfl⟩
  -- the entry's place in the block, and in the array
  have hblock : (cfg0.win 6).xinj (grid0.coords t) j = ix2 p q := funext fun a => Fin.ext (by
    match a with
    | ⟨0, _⟩ => exact hp.symm
    | ⟨1, _⟩ => exact hq.symm)
  have harray : ((cfg0.win 6).blk t).view.emb j = ix2 r q := funext fun a => Fin.ext (by
    match a with
    | ⟨0, _⟩ => show win0_6.index t (0 : Fin 2) * 4000 + 1 * (j 0).val = r.val; omega
    | ⟨1, _⟩ => show win0_6.index t (1 : Fin 2) * 128 + 1 * (j 1).val = q.val; omega)
  show k0_pay1 (F := Ideal) (iblk0 V c 0 t) (iblk0 V c 2 t) (iblk0 V c 1 t) (iblk0 V c 4 t) (iblk0 V c 3 t) (iblk0 V c 5 t)
      ((cfg0.win 6).xinj (grid0.coords t) j) = relu0 V c (((cfg0.win 6).blk t).view.emb j)
  rw [hblock, harray]
  exact reluBlock_entry (iblk0 V c 0 t) (iblk0 V c 2 t) (iblk0 V c 1 t) (iblk0 V c 4 t) (iblk0 V c 3 t) (iblk0 V c 5 t)
    (V c main_v39) (V c main_v40) (V c main_v30) (V c main_v31) (V c main_v37) (V c main_v38) p q r q
    (fun k => aggRows0 V c t p k r hr) (fun k => nodeRows0 V c t p k r hr)
    (fun k => leftWeights0 V c t k q) (fun k => rightWeights0 V c t k q)
    (leftBias0 V c t 0 q) (rightBias0 V c t 0 q)

/-- A row of the result is in point `t`'s block iff it is one of rows 4000·t … 4000·t + 3999. -/
theorem mem_block0 (t : Fin cfg0.N) (i : S40000x128.Idx) :
    i ∈ ((cfg0.win 6).blk t).view.set ↔ ∀ a : Fin 2, win0_6.index t a * S4000x128.size a ≤ (i a).val
      ∧ (i a).val < win0_6.index t a * S4000x128.size a + S4000x128.size a := by
  show i ∈ ((View.whole main_v41).slice (win0_6.rect t)).set ↔ _
  rw [View.set_slice_whole, Rect.mem_set_unit]
  exact Iff.rfl

/-- Every entry of the result is in the block of the point its row falls to, row / 4000. -/
theorem cover0 (i : S40000x128.Idx) :
    ∃ t : Fin cfg0.N, (cfg0.win 6).flush t = true ∧ i ∈ ((cfg0.win 6).blk t).view.set := by
  have hi0 : (i 0).val < 40000 := (i 0).isLt
  have hi1 : (i 1).val < 128 := (i 1).isLt
  obtain ⟨t, ht⟩ : ∃ t : Fin cfg0.N, t.val = (i 0).val / 4000 :=
    ⟨⟨(i 0).val / 4000, lt_of_lt_of_eq (show (i 0).val / 4000 < 10 by omega) N_0.symm⟩, rfl⟩
  obtain ⟨-, -, -, -, -, -, -, -, -, -, -, -, e60, e61⟩ := blockIndex0 t
  refine ⟨t, flush0_6 t, ?_⟩
  rw [mem_block0]
  intro a
  match a with
  | ⟨0, _⟩ =>
    show win0_6.index t (0 : Fin 2) * 4000 ≤ (i 0).val ∧ (i 0).val < win0_6.index t (0 : Fin 2) * 4000 + 4000
    omega
  | ⟨1, _⟩ =>
    show win0_6.index t (1 : Fin 2) * 128 ≤ (i 1).val ∧ (i 1).val < win0_6.index t (1 : Fin 2) * 128 + 128
    omega

/-- The first region's result array after its ten points: the clamped linear stage of the arrays it finds. -/
theorem final0 (c : Dev nD) : (dat0 (F := Ideal) V c).arrAt 6 cfg0.N = fun y =>
    max (Cert.Sage.lin (R := 40000) (C := 128) (V c main_v39) (V c main_v40) (V c main_v30) (V c main_v31) (V c main_v37) (V c main_v38) y) 0 :=
  (dat0 (F := Ideal) V c).arrAt_eq_of_cover 6 (relu0 V c) (fun t _ => flushed0 V c t) cover0

/-! ## The second region -/

/-- What the second region's result ends holding: the linear stage of the arrays the region finds, unclamped. -/
abbrev lin1 (c : Dev nD) : S40000x128.Idx → EReal :=
  Cert.Sage.lin (R := 40000) (C := 128) (V c main_v79) (V c main_v80) (V c main_v68) (V c main_v69) (V c main_v77) (V c main_v78)

/-- The second region's block indices over its ten points follow the same pattern. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of the aggregated-feature block staged at point `t` is row 4000·t + p of the array. -/
theorem aggRows1 (c : Dev nD) (t : Fin cfg1.N) (p : Fin 4000) (k : Fin 128) (r : Fin 40000) (hr : r.val = t.val * 4000 + p.val) :
    iblk1 V c 0 t (ix2 p k) = V c main_v79 (ix2 r k) := by
  obtain ⟨e0, e1, -⟩ := blockIndex1 t
  show V c main_v79 (((cfg1.win 0).blk t).view.emb (ix2 p k)) = V c main_v79 (ix2 r k)
  refine congrArg (V c main_v79) (funext fun a => Fin.ext ?_)
  match a with
  | ⟨0, _⟩ => show win1_0.index t (0 : Fin 2) * 4000 + 1 * p.val = r.val; omega
  | ⟨1, _⟩ => show win1_0.index t (1 : Fin 2) * 128 + 1 * k.val = k.val; omega

/-- Row p of the node-feature block staged at point `t` is row 4000·t + p of the array. -/
theorem nodeRows1 (c : Dev nD) (t : Fin cfg1.N) (p : Fin 4000) (k : Fin 128) (r : Fin 40000) (hr : r.val = t.val * 4000 + p.val) :
    iblk1 V c 1 t (ix2 p k) = V c main_v80 (ix2 r k) := by
  obtain ⟨-, -, e0, e1, -⟩ := blockIndex1 t
  show V c main_v80 (((cfg1.win 1).blk t).view.emb (ix2 p k)) = V c main_v80 (ix2 r k)
  refine congrArg (V c main_v80) (funext fun a => Fin.ext ?_)
  match a with
  | ⟨0, _⟩ => show win1_1.index t (0 : Fin 2) * 4000 + 1 * p.val = r.val; omega
  | ⟨1, _⟩ => show win1_1.index t (1 : Fin 2) * 128 + 1 * k.val = k.val; omega

/-- The left weights are staged whole at every point. -/
theorem leftWeights1 (c : Dev nD) (t : Fin cfg1.N) (k q : Fin 128) : iblk1 V c 2 t (ix2 k q) = V c main_v68 (ix2 k q) := by
  obtain ⟨-, -, -, -, e0, e1, -⟩ := blockIndex1 t
  show V c main_v68 (((cfg1.win 2).blk t).view.emb (ix2 k q)) = V c main_v68 (ix2 k q)
  refine congrArg (V c main_v68) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- So is the left bias row. -/
theorem leftBias1 (c : Dev nD) (t : Fin cfg1.N) (z : Fin 1) (q : Fin 128) : iblk1 V c 3 t (ix2 z q) = V c main_v69 (ix2 z q) := by
  obtain ⟨-, -, -, -, -, -, e0, e1, -⟩ := blockIndex1 t
  show V c main_v69 (((cfg1.win 3).blk t).view.emb (ix2 z q)) = V c main_v69 (ix2 z q)
  refine congrArg (V c main_v69) (funext fun a => Fin.ext ?_)
  match a with
  | ⟨0, _⟩ => show win1_3.index t (0 : Fin 2) * 1 + 1 * z.val = z.val; omega
  | ⟨1, _⟩ => show win1_3.index t (1 : Fin 2) * 128 + 1 * q.val = q.val; omega

/-- So are the right weights … -/
theorem rightWeights1 (c : Dev nD) (t : Fin cfg1.N) (k q : Fin 128) : iblk1 V c 4 t (ix2 k q) = V c main_v77 (ix2 k q) := by
  obtain ⟨-, -, -, -, -, -, -, -, e0, e1, -⟩ := blockIndex1 t
  show V c main_v77 (((cfg1.win 4).blk t).view.emb (ix2 k q)) = V c main_v77 (ix2 k q)
  refine congrArg (V c main_v77) (funext fun a => Fin.ext ?_)
  match a with
  | ⟨0, _⟩ => show win1_4.index t (0 : Fin 2) * 128 + 1 * k.val = k.val; omega
  | ⟨1, _⟩ => show win1_4.index t (1 : Fin 2) * 128 + 1 * q.val = q.val; omega

/-- … and the right bias row. -/
theorem rightBias1 (c : Dev nD) (t : Fin cfg1.N) (z : Fin 1) (q : Fin 128) : iblk1 V c 5 t (ix2 z q) = V c main_v78 (ix2 z q) := by
  obtain ⟨-, -, -, -, -, -, -, -, -, -, e0, e1, -⟩ := blockIndex1 t
  show V c main_v78 (((cfg1.win 5).blk t).view.emb (ix2 z q)) = V c main_v78 (ix2 z q)
  refine congrArg (V c main_v78) (funext fun a => Fin.ext ?_)
  match a with
  | ⟨0, _⟩ => show win1_5.index t (0 : Fin 2) * 1 + 1 * z.val = z.val; omega
  | ⟨1, _⟩ => show win1_5.index t (1 : Fin 2) * 128 + 1 * q.val = q.val; omega

/-- What point `t` writes back is block `t` of `lin1`. -/
theorem flushed1 (c : Dev nD) (t : Fin cfg1.N) :
    (dat1 (F := Ideal) V c).flushed 6 t = ((cfg1.win 6).blk t).view.read (Elt Ideal) (lin1 V c) := by
  show (cfg1.win 6).cut (grid1.coords t) ((dat1 (F := Ideal) V c).after 6 t) = _
  rw [after1_6]
  unfold out1_6
  rw [View.canon_unit_zero zeroOffsets]
  simp only [View.ld_unit_zero (S := S4000x128) zeroOffsets, View.ld_unit_zero (S := S128x128) zeroOffsets,
    View.ld_unit_zero (S := S1x128) zeroOffsets]
  obtain ⟨-, -, -, -, -, -, -, -, -, -, -, -, e60, e61⟩ := blockIndex1 t
  funext j
  have hj0 : (j 0).val < 4000 := (j 0).isLt
  have hj1 : (j 1).val < 128 := (j 1).isLt
  have ht : t.val < 10 := lt_of_lt_of_eq t.isLt N_1
  obtain ⟨p, hp⟩ : ∃ p : Fin 4000, p.val = (j 0).val := ⟨⟨_, hj0⟩, rfl⟩
  obtain ⟨q, hq⟩ : ∃ q : Fin 128, q.val = (j 1).val := ⟨⟨_, hj1⟩, rfl⟩
  obtain ⟨r, hr⟩ : ∃ r : Fin 40000, r.val = t.val * 4000 + p.val := ⟨⟨t.val * 4000 + p.val, by omega⟩, rfl⟩
  -- the entry's place in the block, and in the array
  have hblock : (cfg1.win 6).xinj (grid1.coords t) j = ix2 p q := funext fun a => Fin.ext (by
    match a with
    | ⟨0, _⟩ => exact hp.symm
    | ⟨1, _⟩ => exact hq.symm)
  have harray : ((cfg1.win 6).blk t).view.emb j = ix2 r q := funext fun a => Fin.ext (by
    match a with
    | ⟨0, _⟩ => show win1_6.index t (0 : Fin 2) * 4000 + 1 * (j 0).val = r.val; omega
    | ⟨1, _⟩ => show win1_6.index t (1 : Fin 2) * 128 + 1 * (j 1).val = q.val; omega)
  show k1_pay1 (F := Ideal) (iblk1 V c 0 t) (iblk1 V c 2 t) (iblk1 V c 1 t) (iblk1 V c 4 t) (iblk1 V c 3 t) (iblk1 V c 5 t)
      ((cfg1.win 6).xinj (grid1.coords t) j) = lin1 V c (((cfg1.win 6).blk t).view.emb j)
  rw [hblock, harray]
  exact linBlock_entry (iblk1 V c 0 t) (iblk1 V c 2 t) (iblk1 V c 1 t) (iblk1 V c 4 t) (iblk1 V c 3 t) (iblk1 V c 5 t)
    (V c main_v79) (V c main_v80) (V c main_v68) (V c main_v69) (V c main_v77) (V c main_v78) p q r q
    (fun k => aggRows1 V c t p k r hr) (fun k => nodeRows1 V c t p k r hr)
    (fun k => leftWeights1 V c t k q) (fun k => rightWeights1 V c t k q)
    (leftBias1 V c t 0 q) (rightBias1 V c t 0 q)

/-- A row of the result is in point `t`'s block iff it is one of rows 4000·t … 4000·t + 3999. -/
theorem mem_block1 (t : Fin cfg1.N) (i : S40000x128.Idx) :
    i ∈ ((cfg1.win 6).blk t).view.set ↔ ∀ a : Fin 2, win1_6.index t a * S4000x128.size a ≤ (i a).val
      ∧ (i a).val < win1_6.index t a * S4000x128.size a + S4000x128.size a := by
  show i ∈ ((View.whole main_v81).slice (win1_6.rect t)).set ↔ _
  rw [View.set_slice_whole, Rect.mem_set_unit]
  exact Iff.rfl

/-- Every entry of the result is in the block of the point its row falls to, row / 4000. -/
theorem cover1 (i : S40000x128.Idx) :
    ∃ t : Fin cfg1.N, (cfg1.win 6).flush t = true ∧ i ∈ ((cfg1.win 6).blk t).view.set := by
  have hi0 : (i 0).val < 40000 := (i 0).isLt
  have hi1 : (i 1).val < 128 := (i 1).isLt
  obtain ⟨t, ht⟩ : ∃ t : Fin cfg1.N, t.val = (i 0).val / 4000 :=
    ⟨⟨(i 0).val / 4000, lt_of_lt_of_eq (show (i 0).val / 4000 < 10 by omega) N_1.symm⟩, rfl⟩
  obtain ⟨-, -, -, -, -, -, -, -, -, -, -, -, e60, e61⟩ := blockIndex1 t
  refine ⟨t, flush1_6 t, ?_⟩
  rw [mem_block1]
  intro a
  match a with
  | ⟨0, _⟩ =>
    show win1_6.index t (0 : Fin 2) * 4000 ≤ (i 0).val ∧ (i 0).val < win1_6.index t (0 : Fin 2) * 4000 + 4000
    omega
  | ⟨1, _⟩ =>
    show win1_6.index t (1 : Fin 2) * 128 ≤ (i 1).val ∧ (i 1).val < win1_6.index t (1 : Fin 2) * 128 + 128
    omega

/-- The second region's result array after its ten points: the linear stage of the arrays it finds. -/
theorem final1 (c : Dev nD) : (dat1 (F := Ideal) V c).arrAt 6 cfg1.N =
    Cert.Sage.lin (R := 40000) (C := 128) (V c main_v79) (V c main_v80) (V c main_v68) (V c main_v69) (V c main_v77) (V c main_v78) :=
  (dat1 (F := Ideal) V c).arrAt_eq_of_cover 6 (lin1 V c) (fun t _ => flushed1 V c t) cover1

end Cert.KernelIdeal.RegionValue

end
-- ==== Proof.RefValue.lean ====
/-
  The reference program's result, read at an index.

  The reference is two graph-convolution layers. A layer first averages, for every node, the feature
  rows of the nodes that send it an edge (`agg`: a gather along the edges' sources, a scatter-add into the
  edges' targets, a division by the number of incoming edges or by one where there is none), and then
  applies the linear stage `Cert.Sage.lin` to the averaged and the node's own features. The first layer
  ends in a maximum with zero (`hidden`); the second layer's linear stage is the result.

  The averaging is kept as one opaque array-valued function of the features and the edge list; only the
  linear stage, the bias rows and the maximum with zero are read index by index.
-/
import proofs.«181711_j77154792506118_1_alg».proof.Proof.Gen.ReferenceIdeal.Read
import proofs.«181711_j77154792506118_1_alg».proof.Proof.Lin

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ## The two opaque stages of a layer -/

set_option maxRecDepth 8192 in
/-- Mean aggregation over incoming edges: for edge endpoints in range, row `i` of the result is the sum of the rows `h (src e)` over the edges
    `e` with `dst e = i`, divided by the larger of the number of such edges and one. (Row 0 of `e` holds the
    sources, a negative one counted from the end; row 1 the targets.) The term is the reference's own. -/
def agg (h : FVec Ideal S40000x128 .f32) (e : IVec S2x640000 32) : FVec Ideal S40000x128 .f32 :=
  Host.divf (Host.scatterAdd scatter_S40000x128_S640000x1_S640000x128_1_0_0_1 (broadcastInDim S40000x128 ![] bcast_S_S40000x128 (constant S_ .f32 0x00000000#32)) (broadcastInDim S640000x1 ![0] bcast_S640000_S640000x1_0 (shapeCast _ (extractStridedSlice S1x640000 ![1, 0] e slices_S2x640000_S1x640000_1_0) shapeCasts_S1x640000_S640000)) (Host.gather gather_S40000x128_S640000x1_S640000x128_1_0_n_n_0_1_1128 h (broadcastInDim S640000x1 ![0] bcast_S640000_S640000x1_0 (select (cmpi .slt (shapeCast _ (extractStridedSlice S1x640000 ![0, 0] e slices_S2x640000_S1x640000_0_0) shapeCasts_S1x640000_S640000) (broadcastInDim S640000 ![] bcast_S_S640000 (constantI S_ 32 0#32))) (addi (shapeCast _ (extractStridedSlice S1x640000 ![0, 0] e slices_S2x640000_S1x640000_0_0) shapeCasts_S1x640000_S640000) (broadcastInDim S640000 ![] bcast_S_S640000 (constantI S_ 32 40000#32))) (shapeCast _ (extractStridedSlice S1x640000 ![0, 0] e slices_S2x640000_S1x640000_0_0) shapeCasts_S1x640000_S640000))))) (broadcastInDim S40000x128 ![0, 1] bcast_S40000x1_S40000x128_0_1 (broadcastInDim S40000x1 ![0] bcast_S40000_S40000x1_0 (maximumf (Host.scatterAdd scatter_S40000_S640000x1_S640000_n_0_0_1 (broadcastInDim S40000 ![] bcast_S_S40000 (constant S_ .f32 0x00000000#32)) (broadcastInDim S640000x1 ![0] bcast_S640000_S640000x1_0 (shapeCast _ (extractStridedSlice S1x640000 ![1, 0] e slices_S2x640000_S1x640000_1_0) shapeCasts_S1x640000_S640000)) (broadcastInDim S640000 ![] bcast_S_S640000 (constant S_ .f32 0x3F800000#32))) (broadcastInDim S40000 ![] bcast_S_S40000 (constant S_ .f32 0x3F800000#32)))))

/-- The first layer: the linear stage of the averaged and the own features, then the maximum with zero.
    The term is the reference's own. -/
def hidden (x : FVec Ideal S40000x128 .f32) (e : IVec S2x640000 32) (W1l : FVec Ideal S128x128 .f32) (b1l : FVec Ideal S128 .f32)
    (W1r : FVec Ideal S128x128 .f32) (b1r : FVec Ideal S128 .f32) : FVec Ideal S40000x128 .f32 :=
  maximumf (addf (addf (addf (Host.dotGeneral dot_S40000x128_S128x128_S40000x128_1_0_0_1_n_n none (agg x e) (transpose S128x128 [1, 0] W1l transposes_S128x128_S128x128_1_0)) (broadcastInDim S40000x128 ![0, 1] bcast_S1x128_S40000x128_0_1 (broadcastInDim S1x128 ![1] bcast_S128_S1x128_1 b1l))) (Host.dotGeneral dot_S40000x128_S128x128_S40000x128_1_0_0_1_n_n none x (transpose S128x128 [1, 0] W1r transposes_S128x128_S128x128_1_0))) (broadcastInDim S40000x128 ![0, 1] bcast_S1x128_S40000x128_0_1 (broadcastInDim S1x128 ![1] bcast_S128_S1x128_1 b1r))) (broadcastInDim S40000x128 ![] bcast_S_S40000x128 (constant S_ .f32 0x00000000#32))

/-! ## Reading the pieces at an index -/

/-- A [40000,128] by [128,128] product at an index: the sum over the 128 channels. -/
theorem dot128_apply (a : FVec Ideal S40000x128 .f32) (w : FVec Ideal S128x128 .f32) (y : S40000x128.Idx) :
    Host.dotGeneral dot_S40000x128_S128x128_S40000x128_1_0_0_1_n_n none a w y = ∑ k : Fin 128, a (ix2 (y 0) k) * w (ix2 k (y 1)) := by
  simp only [Host.dotGeneral]
  rw [Ideal.dotGeneral_apply, ← Equiv.sum_comp (contrEquiv1 dot_S40000x128_S128x128_S40000x128_1_0_0_1_n_n 128 rfl rfl).symm]
  refine Finset.sum_congr rfl fun k _ => ?_
  have hk := contrEquiv1_symm_val dot_S40000x128_S128x128_S40000x128_1_0_0_1_n_n 128 rfl rfl k
  have el : dot_S40000x128_S128x128_S40000x128_1_0_0_1_n_n.lhsIdx y ((contrEquiv1 dot_S40000x128_S128x128_S40000x128_1_0_0_1_n_n 128 rfl rfl).symm k) = (ix2 (y 0) k : S40000x128.Idx) := funext fun i => Fin.ext (by
    match i with
    | ⟨0, _⟩ => exact Read.lhs_main_v24_0 _ _
    | ⟨1, _⟩ => exact (Read.lhs_main_v24_1 _ _).trans hk)
  have er : dot_S40000x128_S128x128_S40000x128_1_0_0_1_n_n.rhsIdx y ((contrEquiv1 dot_S40000x128_S128x128_S40000x128_1_0_0_1_n_n 128 rfl rfl).symm k) = (ix2 k (y 1) : S128x128.Idx) := funext fun i => Fin.ext (by
    match i with
    | ⟨0, _⟩ => exact (Read.rhs_main_v24_0 _ _).trans hk
    | ⟨1, _⟩ => exact Read.rhs_main_v24_1 _ _)
  rw [el, er]

/-- A [40000,128] by [128,121] product at an index: the sum over the 128 channels. -/
theorem dot121_apply (a : FVec Ideal S40000x128 .f32) (w : FVec Ideal S128x121 .f32) (y : S40000x121.Idx) :
    Host.dotGeneral dot_S40000x128_S128x121_S40000x121_1_0_0_1_n_n none a w y = ∑ k : Fin 128, a (ix2 (y 0) k) * w (ix2 k (y 1)) := by
  simp only [Host.dotGeneral]
  rw [Ideal.dotGeneral_apply, ← Equiv.sum_comp (contrEquiv1 dot_S40000x128_S128x121_S40000x121_1_0_0_1_n_n 128 rfl rfl).symm]
  refine Finset.sum_congr rfl fun k _ => ?_
  have hk := contrEquiv1_symm_val dot_S40000x128_S128x121_S40000x121_1_0_0_1_n_n 128 rfl rfl k
  have el : dot_S40000x128_S128x121_S40000x121_1_0_0_1_n_n.lhsIdx y ((contrEquiv1 dot_S40000x128_S128x121_S40000x121_1_0_0_1_n_n 128 rfl rfl).symm k) = (ix2 (y 0) k : S40000x128.Idx) := funext fun i => Fin.ext (by
    match i with
    | ⟨0, _⟩ => exact Read.lhs_main_v55_0 _ _
    | ⟨1, _⟩ => exact (Read.lhs_main_v55_1 _ _).trans hk)
  have er : dot_S40000x128_S128x121_S40000x121_1_0_0_1_n_n.rhsIdx y ((contrEquiv1 dot_S40000x128_S128x121_S40000x121_1_0_0_1_n_n 128 rfl rfl).symm k) = (ix2 k (y 1) : S128x121.Idx) := funext fun i => Fin.ext (by
    match i with
    | ⟨0, _⟩ => exact (Read.rhs_main_v55_0 _ _).trans hk
    | ⟨1, _⟩ => exact Read.rhs_main_v55_1 _ _)
  rw [el, er]

/-- A bias row of 128 columns repeated down the 40000 rows reads the row at the column. -/
theorem row128_apply (r : FVec Ideal S1x128 .f32) (y : S40000x128.Idx) :
    broadcastInDim S40000x128 ![0, 1] bcast_S1x128_S40000x128_0_1 r y = r (ix2 (0 : Fin 1) (y 1)) :=
  broadcastInDim_apply _ bcast_S1x128_S40000x128_0_1 r y (ix2 (0 : Fin 1) (y 1)) (fun i => match i with
    | ⟨0, _⟩ => by show 0 = if (1 : Nat) = 1 then 0 else (y 0).val; rw [if_pos rfl]
    | ⟨1, _⟩ => by show (y 1).val = if (128 : Nat) = 1 then 0 else (y 1).val; rw [if_neg (by decide)])

/-- A bias row of 121 columns repeated down the 40000 rows reads the row at the column. -/
theorem row121_apply (r : FVec Ideal S1x121 .f32) (y : S40000x121.Idx) :
    broadcastInDim S40000x121 ![0, 1] bcast_S1x121_S40000x121_0_1 r y = r (ix2 (0 : Fin 1) (y 1)) :=
  broadcastInDim_apply _ bcast_S1x121_S40000x121_0_1 r y (ix2 (0 : Fin 1) (y 1)) (fun i => match i with
    | ⟨0, _⟩ => by show 0 = if (1 : Nat) = 1 then 0 else (y 0).val; rw [if_pos rfl]
    | ⟨1, _⟩ => by show (y 1).val = if (121 : Nat) = 1 then 0 else (y 1).val; rw [if_neg (by decide)])

/-- The array of zeros reads zero. -/
theorem zeros_apply (y : S40000x128.Idx) :
    broadcastInDim S40000x128 ![] bcast_S_S40000x128 (constant (F := Ideal) S_ .f32 0x00000000#32) y = (0 : EReal) := by
  rw [broadcastInDim_apply _ bcast_S_S40000x128 (constant (F := Ideal) S_ .f32 0x00000000#32) y (fun i => i.elim0) (fun i => i.elim0),
    constant_apply, Ideal.ofBits_zero_f32]

/-! ## The first layer and the result at an index -/

/-- The first layer at an index: the linear stage there, or zero if that is larger. -/
theorem hidden_apply (x : FVec Ideal S40000x128 .f32) (e : IVec S2x640000 32) (W1l : FVec Ideal S128x128 .f32) (b1l : FVec Ideal S128 .f32)
    (W1r : FVec Ideal S128x128 .f32) (b1r : FVec Ideal S128 .f32) (y : S40000x128.Idx) :
    hidden x e W1l b1l W1r b1r y
      = max (Cert.Sage.lin (agg x e) x (transpose S128x128 [1, 0] W1l transposes_S128x128_S128x128_1_0)
          (broadcastInDim S1x128 ![1] bcast_S128_S1x128_1 b1l) (transpose S128x128 [1, 0] W1r transposes_S128x128_S128x128_1_0)
          (broadcastInDim S1x128 ![1] bcast_S128_S1x128_1 b1r) y) 0 := by
  unfold hidden Cert.Sage.lin
  rw [maximumf_apply, addf_apply, addf_apply, addf_apply, dot128_apply, dot128_apply, row128_apply, row128_apply, zeros_apply]

/-- The whole reference as a function of its ten arguments: the second layer's linear stage over the first
    layer's output and its average over incoming edges. The term is the reference's own. -/
def result (x : FVec Ideal S40000x128 .f32) (e : IVec S2x640000 32) (W1l : FVec Ideal S128x128 .f32) (b1l : FVec Ideal S128 .f32) (W1r : FVec Ideal S128x128 .f32) (b1r : FVec Ideal S128 .f32) (W2l : FVec Ideal S121x128 .f32) (b2l : FVec Ideal S121 .f32) (W2r : FVec Ideal S121x128 .f32) (b2r : FVec Ideal S121 .f32) : FVec Ideal S40000x121 .f32 :=
  addf (addf (addf (Host.dotGeneral dot_S40000x128_S128x121_S40000x121_1_0_0_1_n_n none (agg (hidden x e W1l b1l W1r b1r) e) (transpose S128x121 [1, 0] W2l transposes_S121x128_S128x121_1_0)) (broadcastInDim S40000x121 ![0, 1] bcast_S1x121_S40000x121_0_1 (broadcastInDim S1x121 ![1] bcast_S121_S1x121_1 b2l))) (Host.dotGeneral dot_S40000x128_S128x121_S40000x121_1_0_0_1_n_n none (hidden x e W1l b1l W1r b1r) (transpose S128x121 [1, 0] W2r transposes_S121x128_S128x121_1_0))) (broadcastInDim S40000x121 ![0, 1] bcast_S1x121_S40000x121_0_1 (broadcastInDim S1x121 ![1] bcast_S121_S1x121_1 b2r))

set_option maxRecDepth 8192 in
/-- The term the reference's run names as its result is `result` of the ten argument arrays. -/
theorem res_eq (m : (ℓ : Loc nD τ sig) → Buf (Elt Ideal) ℓ) (c : Dev nD) :
    Cert.ReferenceIdeal.Value.res_main_v64 (F := Ideal) m c = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Cert.ReferenceIdeal.Value.res_main_v64 result agg hidden agg; rfl

/-- `result` at an index: the second layer's linear stage there. -/
theorem result_apply (x : FVec Ideal S40000x128 .f32) (e : IVec S2x640000 32) (W1l : FVec Ideal S128x128 .f32) (b1l : FVec Ideal S128 .f32) (W1r : FVec Ideal S128x128 .f32) (b1r : FVec Ideal S128 .f32) (W2l : FVec Ideal S121x128 .f32) (b2l : FVec Ideal S121 .f32) (W2r : FVec Ideal S121x128 .f32) (b2r : FVec Ideal S121 .f32) (y : S40000x121.Idx) :
    result x e W1l b1l W1r b1r W2l b2l W2r b2r y
      = Cert.Sage.lin (agg (hidden x e W1l b1l W1r b1r) e) (hidden x e W1l b1l W1r b1r)
          (transpose S128x121 [1, 0] W2l transposes_S121x128_S128x121_1_0) (broadcastInDim S1x121 ![1] bcast_S121_S1x121_1 b2l)
          (transpose S128x121 [1, 0] W2r transposes_S121x128_S128x121_1_0) (broadcastInDim S1x121 ![1] bcast_S121_S1x121_1 b2r) y := by
  unfold result Cert.Sage.lin
  rw [addf_apply, addf_apply, addf_apply, dot121_apply, dot121_apply, row121_apply, row121_apply]

/-- The reference's result at an index: the second layer's linear stage over the first layer's output `H` and
    its average over incoming edges, with the second layer's (transposed) weights and bias rows. -/
theorem res_apply (m : (ℓ : Loc nD τ sig) → Buf (Elt Ideal) ℓ) (c : Dev nD) (y : S40000x121.Idx) :
    Cert.ReferenceIdeal.Value.res_main_v64 (F := Ideal) m c y
      = Cert.Sage.lin (agg (hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg1))) (hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
          (transpose S128x121 [1, 0] (m ((c.tc : Thread nD τ).loc main_arg6)) transposes_S121x128_S128x121_1_0)
          (broadcastInDim S1x121 ![1] bcast_S121_S1x121_1 (m ((c.tc : Thread nD τ).loc main_arg7)))
          (transpose S128x121 [1, 0] (m ((c.tc : Thread nD τ).loc main_arg8)) transposes_S121x128_S128x121_1_0)
          (broadcastInDim S1x121 ![1] bcast_S121_S1x121_1 (m ((c.tc : Thread nD τ).loc main_arg9))) y := by
  rw [res_eq m c]
  exact result_apply _ _ _ _ _ _ _ _ _ _ y

end Cert.ReferenceIdeal.RefValue

end
-- ==== Proof.LinLaws.lean ====
/-
  The linear stage read against the weights AS GIVEN (one row per output channel, not transposed) and the
  bias vectors as given: entry (i, j) is

      (∑ₖ a(i,k) · Wl(j,k)  +  bl(j))  +  ∑ₖ x(i,k) · Wr(j,k)  +  br(j).

  Both programs reach this form: one through transposed copies of the weights and bias rows with a leading
  unit axis, the other through zero-padded copies of which only the first columns are read.
-/
import proofs.«181711_j77154792506118_1_alg».proof.Proof.Lin

noncomputable section

namespace Cert.Sage

open Idealize.ShloMosaic Idealize.ShloMosaic.ValueIdx

/-- The linear stage over the weights and biases as given. -/
def linT {R C : Nat} (a x : (⟨2, ![R, 128]⟩ : Shape).Idx → EReal) (Wl : (⟨2, ![C, 128]⟩ : Shape).Idx → EReal)
    (bl : (⟨1, ![C]⟩ : Shape).Idx → EReal) (Wr : (⟨2, ![C, 128]⟩ : Shape).Idx → EReal)
    (br : (⟨1, ![C]⟩ : Shape).Idx → EReal) : (⟨2, ![R, C]⟩ : Shape).Idx → EReal :=
  fun y => ((∑ k : Fin 128, a (ix2 (y 0) k) * Wl (ix2 (y 1) k)) + bl (ix1 (y 1)))
    + (∑ k : Fin 128, x (ix2 (y 0) k) * Wr (ix2 (y 1) k)) + br (ix1 (y 1))

/-- The linear stage over weights and biases padded to `C'` output channels, read at a channel `j'` that holds the
    unpadded channel `j`, is the linear stage over the unpadded weights and biases as given, at `j`. -/
theorem lin_padded_eq_linT {R C C' : Nat} (a x : (⟨2, ![R, 128]⟩ : Shape).Idx → EReal)
    (wl wr : (⟨2, ![128, C']⟩ : Shape).Idx → EReal) (bl br : (⟨2, ![1, C']⟩ : Shape).Idx → EReal)
    (Wl Wr : (⟨2, ![C, 128]⟩ : Shape).Idx → EReal) (bl' br' : (⟨1, ![C]⟩ : Shape).Idx → EReal)
    (i : Fin R) (j : Fin C) (j' : Fin C')
    (hwl : ∀ k : Fin 128, wl (ix2 k j') = Wl (ix2 j k)) (hwr : ∀ k : Fin 128, wr (ix2 k j') = Wr (ix2 j k))
    (hbl : bl (ix2 (0 : Fin 1) j') = bl' (ix1 j)) (hbr : br (ix2 (0 : Fin 1) j') = br' (ix1 j)) :
    lin a x wl bl wr br (ix2 i j') = linT a x Wl bl' Wr br' (ix2 i j) := by
  show ((∑ k : Fin 128, a (ix2 i k) * wl (ix2 k j')) + bl (ix2 (0 : Fin 1) j'))
        + (∑ k : Fin 128, x (ix2 i k) * wr (ix2 k j')) + br (ix2 (0 : Fin 1) j')
      = ((∑ k : Fin 128, a (ix2 i k) * Wl (ix2 j k)) + bl' (ix1 j))
        + (∑ k : Fin 128, x (ix2 i k) * Wr (ix2 j k)) + br' (ix1 j)
  have e1 : (∑ k : Fin 128, a (ix2 i k) * wl (ix2 k j')) = ∑ k : Fin 128, a (ix2 i k) * Wl (ix2 j k) :=
    Finset.sum_congr rfl fun k _ => by rw [hwl k]
  have e2 : (∑ k : Fin 128, x (ix2 i k) * wr (ix2 k j')) = ∑ k : Fin 128, x (ix2 i k) * Wr (ix2 j k) :=
    Finset.sum_congr rfl fun k _ => by rw [hwr k]
  rw [e1, e2, hbl, hbr]

/-- The linear stage over transposed weights and bias rows is the one over the weights and biases as given. -/
theorem lin_eq_linT {R C : Nat} (a x : (⟨2, ![R, 128]⟩ : Shape).Idx → EReal)
    (wl wr : (⟨2, ![128, C]⟩ : Shape).Idx → EReal) (bl br : (⟨2, ![1, C]⟩ : Shape).Idx → EReal)
    (Wl Wr : (⟨2, ![C, 128]⟩ : Shape).Idx → EReal) (bl' br' : (⟨1, ![C]⟩ : Shape).Idx → EReal)
    (hwl : ∀ (k : Fin 128) (j : Fin C), wl (ix2 k j) = Wl (ix2 j k)) (hwr : ∀ (k : Fin 128) (j : Fin C), wr (ix2 k j) = Wr (ix2 j k))
    (hbl : ∀ j : Fin C, bl (ix2 (0 : Fin 1) j) = bl' (ix1 j)) (hbr : ∀ j : Fin C, br (ix2 (0 : Fin 1) j) = br' (ix1 j)) :
    lin a x wl bl wr br = linT a x Wl bl' Wr br' := by
  funext y
  rw [eq_ix2 y]
  exact lin_padded_eq_linT a x wl wr bl br Wl Wr bl' br' (y 0) (y 1) (y 1) (fun k => hwl k (y 1)) (fun k => hwr k (y 1)) (hbl (y 1)) (hbr (y 1))

end Cert.Sage

end
-- ==== Proof.Spec.lean ====
/-
  What both programs compute, as one function of the ten argument arrays, over the extended reals.

  A layer averages the neighbours' feature rows along the edge list (the aggregation, kept as the host
  operation it is) and applies the linear stage to the averaged and the own features. The first layer ends
  in a maximum with zero; the second layer's linear stage, over 121 output channels, is the result.
-/
import proofs.«181711_j77154792506118_1_alg».proof.Proof.RefValue
import proofs.«181711_j77154792506118_1_alg».proof.Proof.LinLaws

noncomputable section

namespace Cert.Sage

open Cert.ReferenceIdeal Idealize.ShloMosaic Idealize.ShloMosaic.ValueIdx

/-- The first layer's output: the linear stage of the averaged and the own features, then the maximum with zero. -/
def hiddenSpec (x : FVec Ideal S40000x128 .f32) (e : IVec S2x640000 32) (W1l : FVec Ideal S128x128 .f32) (b1l : FVec Ideal S128 .f32)
    (W1r : FVec Ideal S128x128 .f32) (b1r : FVec Ideal S128 .f32) : FVec Ideal S40000x128 .f32 :=
  fun y => max (linT (Cert.ReferenceIdeal.RefValue.agg x e) x W1l b1l W1r b1r y) 0

/-- The second layer's output, the programs' result: the linear stage of the averaged and the own hidden features. -/
def outSpec (x : FVec Ideal S40000x128 .f32) (e : IVec S2x640000 32) (W1l : FVec Ideal S128x128 .f32) (b1l : FVec Ideal S128 .f32)
    (W1r : FVec Ideal S128x128 .f32) (b1r : FVec Ideal S128 .f32) (W2l : FVec Ideal S121x128 .f32) (b2l : FVec Ideal S121 .f32)
    (W2r : FVec Ideal S121x128 .f32) (b2r : FVec Ideal S121 .f32) : FVec Ideal S40000x121 .f32 :=
  linT (Cert.ReferenceIdeal.RefValue.agg (hiddenSpec x e W1l b1l W1r b1r) e) (hiddenSpec x e W1l b1l W1r b1r) W2l b2l W2r b2r

end Cert.Sage

end
-- ==== Proof.KernelBridge.lean ====
/-
  The idealized kernel program's result is the common specification.

  Reading the program from its end: the result is the first 121 columns of the second call's output array;
  that array is, entry by entry, the linear stage of the second call's operands; those operands are the mean
  aggregation of the first call's output, that output itself, and the second layer's weights and biases
  written over zero arrays of 128 columns — of which a column below 121 holds the weight or bias as given;
  the first call's output is the linear stage of ITS operands followed by the maximum with zero; and its
  operands are the mean aggregation of the node features, the node features, and the first layer's weights
  and biases written whole over zero arrays. A change of float format is the identity on the extended reals.
-/
import proofs.«181711_j77154792506118_1_alg».proof.Proof.Gen.KernelIdeal.Frame
import proofs.«181711_j77154792506118_1_alg».proof.Proof.HostTerms
import proofs.«181711_j77154792506118_1_alg».proof.Proof.HostRead0a
import proofs.«181711_j77154792506118_1_alg».proof.Proof.HostRead0b
import proofs.«181711_j77154792506118_1_alg».proof.Proof.HostRead0c
import proofs.«181711_j77154792506118_1_alg».proof.Proof.HostRead1a
import proofs.«181711_j77154792506118_1_alg».proof.Proof.HostRead1b
import proofs.«181711_j77154792506118_1_alg».proof.Proof.HostRead2
import proofs.«181711_j77154792506118_1_alg».proof.Proof.ScatterPad
import proofs.«181711_j77154792506118_1_alg».proof.Proof.RegionValue
import proofs.«181711_j77154792506118_1_alg».proof.Proof.Spec
import Idealize.ShloMosaic.Lib.ValueLayout
import Idealize.ShloMosaic.Lib.Pipeline.Value

noncomputable section

namespace Cert.KernelIdeal.Bridge

open Cert.KernelIdeal Cert.KernelIdeal.Gen Cert.KernelIdeal.HostValue
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- On the extended reals a narrowing of the float format changes nothing. -/
theorem truncf_id {s : Shape} {φ ψ : FTy} (a : FVec Ideal s φ) (h : ψ.bits < φ.bits) : (truncf ψ a h : FVec Ideal s ψ) = a := rfl

/-- The mean aggregation the kernel program's host operations compute is the reference's, term for term. -/
theorem aggK_eq (h : FVec Ideal S40000x128 .f32) (e : IVec S2x640000 32) :
    aggK (F := Ideal) h (srcRow e) (dstRow e) = Cert.ReferenceIdeal.RefValue.agg h e := by
  unfold aggK srcRow dstRow Cert.ReferenceIdeal.RefValue.agg
  rfl

/-- The scatter index of the padding writes is the constant zero. -/
theorem zero_index (k : S1.Idx) : (broadcastInDim S1 ![] bcast_S_S1 (constantI S_ 32 0#32) : IVec S1 32) k = 0#32 := rfl

/-- After the first call its output array holds the specification's hidden features. -/
theorem hidden_kernel :
    (W2 (F := Ideal) m ρ c (Proc.devRef .tc main_v41) : S40000x128.Idx → EReal)
      = Cert.Sage.hiddenSpec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (show W2 (F := Ideal) m ρ c (Proc.devRef .tc main_v41) = _ from W2_arr m ρ c 6).trans ?_
  rw [Cert.KernelIdeal.RegionValue.final0 (V1 m ρ) c]
  funext y
  rw [V1_v39, V1_v40, V1_v30, V1_v31, V1_v37, V1_v38]
  simp only [truncf_id, Cert.KernelIdeal.ScatterPad.full_40000x128, Cert.KernelIdeal.ScatterPad.full_128x128,
    Cert.KernelIdeal.ScatterPad.full_128]
  unfold Cert.Sage.hiddenSpec
  rw [aggK_eq]
  rw [Cert.Sage.lin_eq_linT _ _ _ _ _ _ (m ((c : Thread nD τ).loc main_arg2)) (m ((c : Thread nD τ).loc main_arg4)) (m ((c : Thread nD τ).loc main_arg3)) (m ((c : Thread nD τ).loc main_arg5))
    (fun k j => transpose_ix2_apply _ _ k j) (fun k j => transpose_ix2_apply _ _ k j)
    (fun j => shapeCast_a_1a_apply _ _ 0 j) (fun j => shapeCast_a_1a_apply _ _ 0 j)]

/-- The kernel program's result, at an index, is the specification's. -/
theorem kernel_value (y : S40000x121.Idx) :
    (W5 (F := Ideal) m ρ c (Proc.devRef .tc main_v82) : S40000x121.Idx → EReal) y
      = Cert.Sage.outSpec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) y := by
  have hj' : (y 1).val < 121 := (y 1).isLt
  have hj : (y 1).val < 128 := by omega
  rw [W5_v82, eq_ix2 y]
  refine (extractStridedSlice_apply (t := S40000x121) ![0, 0]
    (W4 (F := Ideal) m ρ c (Proc.devRef .tc main_v81) : S40000x128.Idx → EReal) slices_S40000x128_S40000x121_0_0
    (ix2 (y 0) (y 1)) (ix2 (y 0) (⟨(y 1).val, hj⟩ : Fin 128)) (fun a => by
      match a with
      | ⟨0, _⟩ => exact (Nat.zero_add _).symm
      | ⟨1, _⟩ => exact (Nat.zero_add _).symm)).trans ?_
  rw [show (W4 (F := Ideal) m ρ c (Proc.devRef .tc main_v81) : S40000x128.Idx → EReal) = _ from W4_arr m ρ c 6,
    Cert.KernelIdeal.RegionValue.final1 (V3 m ρ) c]
  rw [V3_v79, V3_v80, V3_v68, V3_v69, V3_v77, V3_v78, W2_v1, W2_v3, W2_arg6, W2_arg7, W2_arg8, W2_arg9, hidden_kernel]
  simp only [truncf_id]
  rw [aggK_eq]
  unfold Cert.Sage.outSpec
  exact Cert.Sage.lin_padded_eq_linT _ _ _ _ _ _ (m ((c : Thread nD τ).loc main_arg6)) (m ((c : Thread nD τ).loc main_arg8)) (m ((c : Thread nD τ).loc main_arg7)) (m ((c : Thread nD τ).loc main_arg9)) (y 0) (y 1) (⟨(y 1).val, hj⟩ : Fin 128)
    (fun k => (transpose_ix2_apply _ _ k _).trans
      ((Cert.KernelIdeal.ScatterPad.pad_121x128 _ _ (zero_index) (m ((c : Thread nD τ).loc main_arg6)) (⟨(y 1).val, hj⟩ : Fin 128) k).trans (dif_pos hj')))
    (fun k => (transpose_ix2_apply _ _ k _).trans
      ((Cert.KernelIdeal.ScatterPad.pad_121x128 _ _ (zero_index) (m ((c : Thread nD τ).loc main_arg8)) (⟨(y 1).val, hj⟩ : Fin 128) k).trans (dif_pos hj')))
    ((shapeCast_a_1a_apply _ _ 0 _).trans
      ((Cert.KernelIdeal.ScatterPad.pad_121 _ _ (zero_index) (m ((c : Thread nD τ).loc main_arg7)) (⟨(y 1).val, hj⟩ : Fin 128)).trans (dif_pos hj')))
    ((shapeCast_a_1a_apply _ _ 0 _).trans
      ((Cert.KernelIdeal.ScatterPad.pad_121 _ _ (zero_index) (m ((c : Thread nD τ).loc main_arg9)) (⟨(y 1).val, hj⟩ : Fin 128)).trans (dif_pos hj')))

end Cert.KernelIdeal.Bridge

end
-- ==== Proof.RefBridge.lean ====
/-
  The reference program's result is the common specification: its two layers' linear stages, read with the
  weights as given (a transposed weight matrix read at (k, j) is the matrix at (j, k); a bias vector given a
  leading unit axis reads the vector), and its first layer's maximum with zero.
-/
import proofs.«181711_j77154792506118_1_alg».proof.Proof.Spec
import Idealize.ShloMosaic.Lib.ValueLayout
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem
open Idealize.ShloMosaic.ValueIdx

/-- A 128-entry bias vector broadcast to a one-row matrix reads, in that row, the vector. -/
theorem biasRow128 (b : FVec Ideal S128 .f32) (j : Fin 128) :
    broadcastInDim S1x128 ![1] bcast_S128_S1x128_1 b (ix2 (0 : Fin 1) j) = b (ix1 j) :=
  broadcastInDim_apply _ _ b _ _ fun a => by
    match a with
    | ⟨0, _⟩ => exact (if_neg (show ¬ (128 : ℕ) = 1 by decide)).symm

/-- A 121-entry bias vector broadcast to a one-row matrix reads, in that row, the vector. -/
theorem biasRow121 (b : FVec Ideal S121 .f32) (j : Fin 121) :
    broadcastInDim S1x121 ![1] bcast_S121_S1x121_1 b (ix2 (0 : Fin 1) j) = b (ix1 j) :=
  broadcastInDim_apply _ _ b _ _ fun a => by
    match a with
    | ⟨0, _⟩ => exact (if_neg (show ¬ (121 : ℕ) = 1 by decide)).symm

/-- The reference's first layer is the specification's. -/
theorem hidden_eq (x : FVec Ideal S40000x128 .f32) (e : IVec S2x640000 32) (W1l : FVec Ideal S128x128 .f32) (b1l : FVec Ideal S128 .f32)
    (W1r : FVec Ideal S128x128 .f32) (b1r : FVec Ideal S128 .f32) :
    hidden x e W1l b1l W1r b1r = Cert.Sage.hiddenSpec x e W1l b1l W1r b1r := by
  funext y
  rw [hidden_apply]
  unfold Cert.Sage.hiddenSpec
  rw [Cert.Sage.lin_eq_linT (agg x e) x _ _ _ _ W1l W1r b1l b1r
    (fun k j => transpose_ix2_apply W1l _ k j) (fun k j => transpose_ix2_apply W1r _ k j)
    (fun j => biasRow128 b1l j) (fun j => biasRow128 b1r j)]

/-- The reference's result, at an index, is the specification's. -/
theorem ref_value (m : (ℓ : Loc nD τ sig) → Buf (Elt Ideal) ℓ) (c : Dev nD) (y : S40000x121.Idx) :
    Cert.ReferenceIdeal.Value.res_main_v64 (F := Ideal) m c y
      = Cert.Sage.outSpec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) y := by
  rw [res_eq, result_apply, hidden_eq]
  unfold Cert.Sage.outSpec
  exact congrFun (Cert.Sage.lin_eq_linT _ _ _ _ _ _ (m ((c.tc : Thread nD τ).loc main_arg6)) (m ((c.tc : Thread nD τ).loc main_arg8)) (m ((c.tc : Thread nD τ).loc main_arg7)) (m ((c.tc : Thread nD τ).loc main_arg9))
    (fun k j => transpose_ix2_apply _ _ k j) (fun k j => transpose_ix2_apply _ _ k j)
    (fun j => biasRow121 _ j) (fun j => biasRow121 _ j)) y

end Cert.ReferenceIdeal.RefValue

end
-- ==== Proof.lean ====
/-
  The certificate of a two-layer graph convolution: a kernel program that runs each layer's linear stage
  (two 128-channel matrix products, two bias rows, and after the first layer a maximum with zero) as a
  blocked kernel call over 4000-row blocks, with the neighbour aggregation done by host operations, against
  the plain array program.

  Over the extended reals the two programs are one function of their ten arguments (`Cert.Sage.outSpec`):
  * the aggregation is the same host operations in both, applied to arrays shown equal;
  * a matrix product accumulated from zero inside a block is the plain sum over the 128 channels, block by
    block, and the blocks tile the rows;
  * the kernel program's zero-padding of the weights to 128 output channels only adds columns the final
    cut to 121 columns drops, and its changes of float format are the identity.
  Nothing here needs the inputs to be finite: both sides add and multiply the same extended reals in the
  same order.
-/
import proofs.«181711_j77154792506118_1_alg».proof.Defs
import proofs.«181711_j77154792506118_1_alg».proof.Proof.Gen.Kernel
import proofs.«181711_j77154792506118_1_alg».proof.Proof.Gen.Kernel.Frame
import proofs.«181711_j77154792506118_1_alg».proof.Proof.Gen.KernelIdeal
import proofs.«181711_j77154792506118_1_alg».proof.Proof.Gen.KernelIdeal.Frame
import proofs.«181711_j77154792506118_1_alg».proof.Proof.Gen.ReferenceIdeal
import proofs.«181711_j77154792506118_1_alg».proof.Proof.Gen.ReferenceIdeal.Run
import proofs.«181711_j77154792506118_1_alg».proof.Proof.Gen.ReferenceIdeal.Read
import proofs.«181711_j77154792506118_1_alg».proof.Proof.Gen.Pre_finite_inputs
import proofs.«181711_j77154792506118_1_alg».proof.Proof.KernelRun
import proofs.«181711_j77154792506118_1_alg».proof.Proof.KernelBridge
import proofs.«181711_j77154792506118_1_alg».proof.Proof.RefBridge
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The reference runs and leaves its arguments unchanged: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the specification's array in their result. -/
theorem algebraic : Cert.algebraic_KernelIdeal_ReferenceIdeal := by
  intro m ρ m' ρ' _ hagree
  refine ⟨fun c => Cert.KernelIdeal.Gen.W5 (F := Ideal) m ρ c (Proc.devRef .tc Cert.KernelIdeal.main_v82),
    Cert.KernelIdeal.Run.run_result (F := Ideal) m ρ, ?_⟩
  refine (θ_run Cert.ReferenceIdeal.defs _ _).mono (fun _ h c => ⟨(h c).1.trans ?_, (h c).2⟩)
    (Cert.ReferenceIdeal.Value.run (F := Ideal) m' ρ')
  refine funext fun y => ?_
  rw [Cert.ReferenceIdeal.RefValue.ref_value m' c y]
  obtain ⟨h0, h1, h2, h3, h4, h5, h6, h7, h8, h9⟩ := hagree c
  rw [h0, h1, h2, h3, h4, h5, h6, h7, h8, h9]
  exact (Cert.KernelIdeal.Bridge.kernel_value m ρ c y).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
